-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S128x64 .f32) (main_arg9 : FVec F S64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S128x64 .f32) (main_arg9 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x64 .f32) (main_arg9 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S2000x128 : Shape := ⟨2, ![2000, 128]⟩
abbrev S850000x128 : Shape := ⟨2, ![850000, 128]⟩
abbrev S1x128 : Shape := ⟨2, ![1, 128]⟩
abbrev S1x64 : Shape := ⟨2, ![1, 64]⟩
abbrev S2000x64 : Shape := ⟨2, ![2000, 64]⟩

abbrev nBuf : Space → Nat
  | .hbm => 98
  | .vmem => 19
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S50000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S1x800000, .i32⟩
  | .hbm, ⟨15, _⟩ => ⟨S800000, .i32⟩
  | .hbm, ⟨16, _⟩ => ⟨S850000, .i32⟩
  | .hbm, ⟨17, _⟩ => ⟨S_, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000, .f32⟩
  | .hbm, ⟨30, _⟩ => ⟨S_, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S_, .i32⟩
  | .hbm, ⟨35, _⟩ => ⟨S850000, .i32⟩
  | .hbm, ⟨36, _⟩ => ⟨S850000, .i1⟩
  | .hbm, ⟨37, _⟩ => ⟨S_, .i32⟩
  | .hbm, ⟨38, _⟩ => ⟨S850000, .i32⟩
  | .hbm, ⟨39, _⟩ => ⟨S850000, .i32⟩
  | .hbm, ⟨40, _⟩ => ⟨S850000, .i32⟩
  | .hbm, ⟨41, _⟩ => ⟨S850000x1, .i32⟩
  | .hbm, ⟨42, _⟩ => ⟨S850000, .f32⟩
  | .hbm, ⟨43, _⟩ => ⟨S_, .i32⟩
  | .hbm, ⟨44, _⟩ => ⟨S850000, .i32⟩
  | .hbm, ⟨45, _⟩ => ⟨S850000, .i1⟩
  | .hbm, ⟨46, _⟩ => ⟨S_, .i32⟩
  | .hbm, ⟨47, _⟩ => ⟨S850000, .i32⟩
  | .hbm, ⟨48, _⟩ => ⟨S850000, .i32⟩
  | .hbm, ⟨49, _⟩ => ⟨S850000, .i32⟩
  | .hbm, ⟨50, _⟩ => ⟨S850000x1, .i32⟩
  | .hbm, ⟨51, _⟩ => ⟨S850000, .f32⟩
  | .hbm, ⟨52, _⟩ => ⟨S850000, .f32⟩
  | .hbm, ⟨53, _⟩ => ⟨S128x128, .bf16⟩
  | .hbm, ⟨54, _⟩ => ⟨S50000x128, .bf16⟩
  | .hbm, ⟨55, _⟩ => ⟨S_, .i32⟩
  | .hbm, ⟨56, _⟩ => ⟨S850000, .i32⟩
  | .hbm, ⟨57, _⟩ => ⟨S850000, .i1⟩
  | .hbm, ⟨58, _⟩ => ⟨S_, .i32⟩
  | .hbm, ⟨59, _⟩ => ⟨S850000, .i32⟩
  | .hbm, ⟨60, _⟩ => ⟨S850000, .i32⟩
  | .hbm, ⟨61, _⟩ => ⟨S850000, .i32⟩
  | .hbm, ⟨62, _⟩ => ⟨S850000x1, .i32⟩
  | .hbm, ⟨63, _⟩ => ⟨S850000x128, .bf16⟩
  | .hbm, ⟨64, _⟩ => ⟨S850000x128, .f32⟩
  | .hbm, ⟨65, _⟩ => ⟨S850000x1, .f32⟩
  | .hbm, ⟨66, _⟩ => ⟨S850000x128, .f32⟩
  | .hbm, ⟨67, _⟩ => ⟨S850000x128, .f32⟩
  | .hbm, ⟨68, _⟩ => ⟨S_, .f32⟩
  | .hbm, ⟨69, _⟩ => ⟨S50000x128, .f32⟩
  | .hbm, ⟨70, _⟩ => ⟨S850000x1, .i32⟩
  | .hbm, ⟨71, _⟩ => ⟨S50000x128, .f32⟩
  | .hbm, ⟨72, _⟩ => ⟨S1x128, .f32⟩
  | .hbm, ⟨73, _⟩ => ⟨S1x128, .f32⟩
  | .hbm, ⟨74, _⟩ => ⟨S128x128, .bf16⟩
  | .hbm, ⟨75, _⟩ => ⟨S128x128, .bf16⟩
  | .hbm, ⟨76, _⟩ => ⟨S50000x128, .bf16⟩
  | .hbm, ⟨77, _⟩ => ⟨S_, .i32⟩
  | .hbm, ⟨78, _⟩ => ⟨S850000, .i32⟩
  | .hbm, ⟨79, _⟩ => ⟨S850000, .i1⟩
  | .hbm, ⟨80, _⟩ => ⟨S_, .i32⟩
  | .hbm, ⟨81, _⟩ => ⟨S850000, .i32⟩
  | .hbm, ⟨82, _⟩ => ⟨S850000, .i32⟩
  | .hbm, ⟨83, _⟩ => ⟨S850000, .i32⟩
  | .hbm, ⟨84, _⟩ => ⟨S850000x1, .i32⟩
  | .hbm, ⟨85, _⟩ => ⟨S850000x128, .bf16⟩
  | .hbm, ⟨86, _⟩ => ⟨S850000x128, .f32⟩
  | .hbm, ⟨87, _⟩ => ⟨S850000x1, .f32⟩
  | .hbm, ⟨88, _⟩ => ⟨S850000x128, .f32⟩
  | .hbm, ⟨89, _⟩ => ⟨S850000x128, .f32⟩
  | .hbm, ⟨90, _⟩ => ⟨S_, .f32⟩
  | .hbm, ⟨91, _⟩ => ⟨S50000x128, .f32⟩
  | .hbm, ⟨92, _⟩ => ⟨S850000x1, .i32⟩
  | .hbm, ⟨93, _⟩ => ⟨S50000x128, .f32⟩
  | .hbm, ⟨94, _⟩ => ⟨S1x128, .f32⟩
  | .hbm, ⟨95, _⟩ => ⟨S1x64, .f32⟩
  | .hbm, ⟨96, _⟩ => ⟨S128x64, .bf16⟩
  | .hbm, ⟨97, _⟩ => ⟨S1x64, .f32⟩
  | .local _ .vmem, ⟨0, _⟩ => ⟨S2000x128, .f32⟩
  | .local _ .vmem, ⟨1, _⟩ => ⟨S2000x128, .f32⟩
  | .local _ .vmem, ⟨2, _⟩ => ⟨S128x128, .bf16⟩
  | .local _ .vmem, ⟨3, _⟩ => ⟨S2000x128, .bf16⟩
  | .local _ .vmem, ⟨4, _⟩ => ⟨S2000x128, .bf16⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S128x128, .bf16⟩
  | .local _ .vmem, ⟨9, _⟩ => ⟨S1x128, .f32⟩
  | .local _ .vmem, ⟨10, _⟩ => ⟨S128x128, .bf16⟩
  | .local _ .vmem, ⟨11, _⟩ => ⟨S2000x128, .bf16⟩
  | .local _ .vmem, ⟨12, _⟩ => ⟨S2000x128, .bf16⟩
  | .local _ .vmem, ⟨13, _⟩ => ⟨S2000x128, .f32⟩
  | .local _ .vmem, ⟨14, _⟩ => ⟨S2000x128, .f32⟩
  | .local _ .vmem, ⟨15, _⟩ => ⟨S1x128, .f32⟩
  | .local _ .vmem, ⟨16, _⟩ => ⟨S128x64, .bf16⟩
  | .local _ .vmem, ⟨17, _⟩ => ⟨S1x64, .f32⟩
  | .local _ .vmem, ⟨18, _⟩ => ⟨S1x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_c_8 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_9 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_c_10 : Ref sig .tc := ⟨.hbm, 77, rfl⟩
abbrev main_v53 : Ref sig .tc := ⟨.hbm, 78, rfl⟩
abbrev main_v54 : Ref sig .tc := ⟨.hbm, 79, rfl⟩
abbrev main_c_11 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_12 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem4_0 : DmaSem sig := 18

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x64 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bitsLt_bf16_f32 : FTy.bits .bf16 < FTy.bits .f32
  inb_S2000x128_S2000x128_0_0 : ∀ a, (![0, 0] : Fin 2 → Nat) a + S2000x128.size a ≤ S2000x128.size a
  h_S2000x128 : 0 < S2000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  packedbf16_S2000x128_S2000x128_0_0 : (Rect.unit (s := S2000x128) ![0, 0] S2000x128.size inb_S2000x128_S2000x128_0_0).PackedRows (EltTy.packing .bf16)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S64_S1x64 : S64.ShapeCasts S1x64
  inb_S1x64_S1x64_0_0 : ∀ a, (![0, 0] : Fin 2 → Nat) a + S1x64.size a ≤ S1x64.size a
  h_S1x64 : 0 < S1x64.numel
  inb_S128x64_S128x64_0_0 : ∀ a, (![0, 0] : Fin 2 → Nat) a + S128x64.size a ≤ S128x64.size a
  h_S128x64 : 0 < S128x64.numel
  shapeCasts_S128x64_S128x64 : S128x64.ShapeCasts S128x64
  shapeCasts_S1x64_S1x64 : S1x64.ShapeCasts S1x64
  broadcasts_S1x64_S2000x64 : S1x64.Broadcasts S2000x64
  reduces_S2000x64_S64 : S2000x64.Reduces [0] S64
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x128_S128x128_S2000x128_1_0_0_1_n_n_wf : DotDims.WF S2000x128 S128x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .bf16 = 32 ∨ (Rect.block (s := S50000x128) S2000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .bf16 = 32 ∨ (Rect.block (s := S50000x128) S2000x128.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .bf16 = 32 ∨ (Rect.block (s := S128x64) S128x64.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v49) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v51) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v52) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v66) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v67) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v69) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v68) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v70) S1x64.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S1x64 : Shape := ⟨2, ![1, 64]⟩

abbrev nBuf : Space → Nat
  | .hbm => 142
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x64, .f32⟩
  | 9 => ⟨S64, .f32⟩
  | 10 => ⟨S50000, .i32⟩
  | 11 => ⟨S1x800000, .i32⟩
  | 12 => ⟨S800000, .i32⟩
  | 13 => ⟨S850000, .i32⟩
  | 14 => ⟨S1x800000, .i32⟩
  | 15 => ⟨S800000, .i32⟩
  | 16 => ⟨S850000, .i32⟩
  | 17 => ⟨S_, .f32⟩
  | 18 => ⟨S850000, .f32⟩
  | 19 => ⟨S_, .f32⟩
  | 20 => ⟨S50000, .f32⟩
  | 21 => ⟨S850000x1, .i32⟩
  | 22 => ⟨S50000, .f32⟩
  | 23 => ⟨S_, .f32⟩
  | 24 => ⟨S50000, .f32⟩
  | 25 => ⟨S50000, .i1⟩
  | 26 => ⟨S_, .f32⟩
  | 27 => ⟨S50000, .f32⟩
  | 28 => ⟨S50000, .f32⟩
  | 29 => ⟨S50000, .f32⟩
  | 30 => ⟨S_, .f32⟩
  | 31 => ⟨S_, .f32⟩
  | 32 => ⟨S50000, .f32⟩
  | 33 => ⟨S50000, .f32⟩
  | 34 => ⟨S_, .i32⟩
  | 35 => ⟨S850000, .i32⟩
  | 36 => ⟨S850000, .i1⟩
  | 37 => ⟨S_, .i32⟩
  | 38 => ⟨S850000, .i32⟩
  | 39 => ⟨S850000, .i32⟩
  | 40 => ⟨S850000, .i32⟩
  | 41 => ⟨S850000x1, .i32⟩
  | 42 => ⟨S850000, .f32⟩
  | 43 => ⟨S_, .i32⟩
  | 44 => ⟨S850000, .i32⟩
  | 45 => ⟨S850000, .i1⟩
  | 46 => ⟨S_, .i32⟩
  | 47 => ⟨S850000, .i32⟩
  | 48 => ⟨S850000, .i32⟩
  | 49 => ⟨S850000, .i32⟩
  | 50 => ⟨S850000x1, .i32⟩
  | 51 => ⟨S850000, .f32⟩
  | 52 => ⟨S850000, .f32⟩
  | 53 => ⟨S50000x128, .f32⟩
  | 54 => ⟨S_, .i32⟩
  | 55 => ⟨S850000, .i32⟩
  | 56 => ⟨S850000, .i1⟩
  | 57 => ⟨S_, .i32⟩
  | 58 => ⟨S850000, .i32⟩
  | 59 => ⟨S850000, .i32⟩
  | 60 => ⟨S850000, .i32⟩
  | 61 => ⟨S850000x1, .i32⟩
  | 62 => ⟨S850000x128, .f32⟩
  | 63 => ⟨S850000x1, .f32⟩
  | 64 => ⟨S850000x128, .f32⟩
  | 65 => ⟨S850000x128, .f32⟩
  | 66 => ⟨S_, .f32⟩
  | 67 => ⟨S50000x128, .f32⟩
  | 68 => ⟨S850000x1, .i32⟩
  | 69 => ⟨S50000x128, .f32⟩
  | 70 => ⟨S1x128, .f32⟩
  | 71 => ⟨S50000x128, .f32⟩
  | 72 => ⟨S50000x128, .f32⟩
  | 73 => ⟨S50000x128, .f32⟩
  | 74 => ⟨S50000x128, .f32⟩
  | 75 => ⟨S1x128, .f32⟩
  | 76 => ⟨S50000x128, .f32⟩
  | 77 => ⟨S50000x128, .f32⟩
  | 78 => ⟨S_, .f32⟩
  | 79 => ⟨S850000, .f32⟩
  | 80 => ⟨S_, .f32⟩
  | 81 => ⟨S50000, .f32⟩
  | 82 => ⟨S850000x1, .i32⟩
  | 83 => ⟨S50000, .f32⟩
  | 84 => ⟨S_, .f32⟩
  | 85 => ⟨S50000, .f32⟩
  | 86 => ⟨S50000, .i1⟩
  | 87 => ⟨S_, .f32⟩
  | 88 => ⟨S50000, .f32⟩
  | 89 => ⟨S50000, .f32⟩
  | 90 => ⟨S50000, .f32⟩
  | 91 => ⟨S_, .f32⟩
  | 92 => ⟨S_, .f32⟩
  | 93 => ⟨S50000, .f32⟩
  | 94 => ⟨S50000, .f32⟩
  | 95 => ⟨S_, .i32⟩
  | 96 => ⟨S850000, .i32⟩
  | 97 => ⟨S850000, .i1⟩
  | 98 => ⟨S_, .i32⟩
  | 99 => ⟨S850000, .i32⟩
  | 100 => ⟨S850000, .i32⟩
  | 101 => ⟨S850000, .i32⟩
  | 102 => ⟨S850000x1, .i32⟩
  | 103 => ⟨S850000, .f32⟩
  | 104 => ⟨S_, .i32⟩
  | 105 => ⟨S850000, .i32⟩
  | 106 => ⟨S850000, .i1⟩
  | 107 => ⟨S_, .i32⟩
  | 108 => ⟨S850000, .i32⟩
  | 109 => ⟨S850000, .i32⟩
  | 110 => ⟨S850000, .i32⟩
  | 111 => ⟨S850000x1, .i32⟩
  | 112 => ⟨S850000, .f32⟩
  | 113 => ⟨S850000, .f32⟩
  | 114 => ⟨S50000x128, .f32⟩
  | 115 => ⟨S_, .i32⟩
  | 116 => ⟨S850000, .i32⟩
  | 117 => ⟨S850000, .i1⟩
  | 118 => ⟨S_, .i32⟩
  | 119 => ⟨S850000, .i32⟩
  | 120 => ⟨S850000, .i32⟩
  | 121 => ⟨S850000, .i32⟩
  | 122 => ⟨S850000x1, .i32⟩
  | 123 => ⟨S850000x128, .f32⟩
  | 124 => ⟨S850000x1, .f32⟩
  | 125 => ⟨S850000x128, .f32⟩
  | 126 => ⟨S850000x128, .f32⟩
  | 127 => ⟨S_, .f32⟩
  | _ => ⟨S50000x128, .f32⟩

abbrev hbmTy0_1 (i : Nat) : BufTy := match i % 128 with
  | 0 => ⟨S50000x128, .f32⟩
  | 1 => ⟨S850000x1, .i32⟩
  | 2 => ⟨S50000x128, .f32⟩
  | 3 => ⟨S1x128, .f32⟩
  | 4 => ⟨S50000x128, .f32⟩
  | 5 => ⟨S50000x128, .f32⟩
  | 6 => ⟨S50000x128, .f32⟩
  | 7 => ⟨S50000x64, .f32⟩
  | 8 => ⟨S1x64, .f32⟩
  | 9 => ⟨S50000x64, .f32⟩
  | 10 => ⟨S50000x64, .f32⟩
  | 11 => ⟨S_, .f32⟩
  | 12 => ⟨S64, .f32⟩
  | 13 => ⟨S1x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_10 : Ref sig .tc := ⟨.hbm, 78, rfl⟩
abbrev main_v54 : Ref sig .tc := ⟨.hbm, 79, rfl⟩
abbrev main_cst_11 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_12 : Ref sig .tc := ⟨.hbm, 84, rfl⟩
abbrev main_v58 : Ref sig .tc := ⟨.hbm, 85, rfl⟩
abbrev main_v59 : Ref sig .tc := ⟨.hbm, 86, rfl⟩
abbrev main_cst_13 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_14 : Ref sig .tc := ⟨.hbm, 91, rfl⟩
abbrev main_call1_v0 : Ref sig .tc := ⟨.hbm, 92, rfl⟩
abbrev main_call1_v1 : Ref sig .tc := ⟨.hbm, 93, rfl⟩
abbrev main_v63 : Ref sig .tc := ⟨.hbm, 94, rfl⟩
abbrev main_c_15 : Ref sig .tc := ⟨.hbm, 95, rfl⟩
abbrev main_v64 : Ref sig .tc := ⟨.hbm, 96, rfl⟩
abbrev main_v65 : Ref sig .tc := ⟨.hbm, 97, rfl⟩
abbrev main_c_16 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_c_17 : Ref sig .tc := ⟨.hbm, 104, rfl⟩
abbrev main_v71 : Ref sig .tc := ⟨.hbm, 105, rfl⟩
abbrev main_v72 : Ref sig .tc := ⟨.hbm, 106, rfl⟩
abbrev main_c_18 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_c_19 : Ref sig .tc := ⟨.hbm, 115, rfl⟩
abbrev main_v80 : Ref sig .tc := ⟨.hbm, 116, rfl⟩
abbrev main_v81 : Ref sig .tc := ⟨.hbm, 117, rfl⟩
abbrev main_c_20 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_cst_21 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_cst_22 : Ref sig .tc := ⟨.hbm, 139, rfl⟩
abbrev main_v101 : Ref sig .tc := ⟨.hbm, 140, rfl⟩
abbrev main_v102 : Ref sig .tc := ⟨.hbm, 141, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S64_d0 : S50000x64.ReducesTo [0] S64
  h_S_ : 0 < S_.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.RunNamed.lean ====
/-
  The kernel program's run with its result named: every weakly fair execution ends with the result buffer at the
  contents the last region's write-backs leave, and the argument arrays as launched. It is the frame of the program
  with one more buffer read off the final state.
-/
import proofs.«117327_j28965259444614_2_alg».proof.Proof.Gen.KernelIdeal.Frame

set_option maxRecDepth 16384

noncomputable section

namespace Cert.KernelIdeal.RunNamed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at what the fold of
    the host operations and the three regions' write-backs leaves there, the arguments as launched. -/
theorem run_named : θ_run defs (onTc (τ := τ) (main (F := F))) ⟨m, fun _ => 0, ρ⟩ (fun r => ∀ c : Dev nD,
      r.2.mem ((c.tc : Thread nD τ).loc main_v70) = W8 m ρ c (Proc.devRef .tc main_v70)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v70 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c)⟩)

end Cert.KernelIdeal.RunNamed

end
-- ==== Proof.Spec.lean ====
/-
  The mathematics both programs compute, as functions of whole arrays of extended reals.

  A graph convolution network on 50000 nodes: a node-feature matrix is multiplied by a weight matrix (`lin`),
  aggregated along the edges of the graph (a gather, a scaling by the edge norms and a scatter-add: kept as one
  function of the feature matrix, the same in both programs), shifted by a bias and squashed by tanh (`act`), sent
  through an affine layer (`aff`), and at the end reduced to the maximum of every column over all nodes (`colMax`).
  The three stages between the aggregations are `stage0`, `stage1`, `stage2`.
-/
import Idealize.ShloMosaic.Lib.ValueIdx
import Idealize.ShloMosaic.PureOps.Ideal.Laws

noncomputable section

open scoped BigOperators

namespace Cert.Gcn

open Idealize.ShloMosaic Idealize.ShloMosaic.ValueIdx

/-- The row of a matrix index, as a number below the row count. -/
abbrev row {n m : ℕ} (i : (⟨2, ![n, m]⟩ : Shape).Idx) : Fin n := ⟨(i 0).val, idx2_lt0 i⟩
/-- The column of a matrix index, as a number below the column count. -/
abbrev col {n m : ℕ} (i : (⟨2, ![n, m]⟩ : Shape).Idx) : Fin m := ⟨(i 1).val, idx2_lt1 i⟩

/-- The matrix product `x · w`: entry `(p, c)` is `∑ k, x (p, k) * w (k, c)`. -/
def lin {n K m : ℕ} (x : (⟨2, ![n, K]⟩ : Shape).Idx → EReal) (w : (⟨2, ![K, m]⟩ : Shape).Idx → EReal) :
    (⟨2, ![n, m]⟩ : Shape).Idx → EReal :=
  fun i => ∑ k : Fin K, x (ix2 (row i) k) * w (ix2 k (col i))

/-- The activation `tanh (a + b)`, the bias `b` added along every row. -/
def act {n m : ℕ} (a : (⟨2, ![n, m]⟩ : Shape).Idx → EReal) (b : (⟨1, ![m]⟩ : Shape).Idx → EReal) :
    (⟨2, ![n, m]⟩ : Shape).Idx → EReal :=
  fun i => Ideal.tanh (a i + b (ix1 (col i)))

/-- The affine layer `x · w + b`, the bias `b` added along every row. -/
def aff {n K m : ℕ} (x : (⟨2, ![n, K]⟩ : Shape).Idx → EReal) (w : (⟨2, ![K, m]⟩ : Shape).Idx → EReal)
    (b : (⟨1, ![m]⟩ : Shape).Idx → EReal) : (⟨2, ![n, m]⟩ : Shape).Idx → EReal :=
  fun i => lin x w i + b (ix1 (col i))

/-- The maximum of every column over all rows, from `⊥`, as a one-row matrix. -/
def colMax {n m : ℕ} (h : (⟨2, ![n, m]⟩ : Shape).Idx → EReal) : (⟨2, ![1, m]⟩ : Shape).Idx → EReal :=
  fun i => (Finset.univ : Finset (Fin n)).fold max ⊥ (fun p => h (ix2 p (col i)))

/-- The one row of a one-row matrix, as a vector. -/
def rowOf {m : ℕ} (b : (⟨2, ![1, m]⟩ : Shape).Idx → EReal) : (⟨1, ![m]⟩ : Shape).Idx → EReal :=
  fun i => b (ix2 (0 : Fin 1) (⟨(i 0).val, (i 0).isLt⟩ : Fin m))

/-- The one row read at a column. -/
theorem rowOf_ix1 {m : ℕ} (b : (⟨2, ![1, m]⟩ : Shape).Idx → EReal) (j : Fin m) : rowOf b (ix1 j) = b (ix2 (0 : Fin 1) j) := rfl

/-- Before the first aggregation: the input features times the first weight matrix. -/
def stage0 (x : (⟨2, ![50000, 128]⟩ : Shape).Idx → EReal) (w1 : (⟨2, ![128, 128]⟩ : Shape).Idx → EReal) :
    (⟨2, ![50000, 128]⟩ : Shape).Idx → EReal :=
  lin x w1

/-- Between the two aggregations: bias and tanh, the affine hidden layer, then the second convolution's weights. -/
def stage1 (a : (⟨2, ![50000, 128]⟩ : Shape).Idx → EReal) (b1 : (⟨1, ![128]⟩ : Shape).Idx → EReal)
    (wl : (⟨2, ![128, 128]⟩ : Shape).Idx → EReal) (bl : (⟨1, ![128]⟩ : Shape).Idx → EReal)
    (w2 : (⟨2, ![128, 128]⟩ : Shape).Idx → EReal) : (⟨2, ![50000, 128]⟩ : Shape).Idx → EReal :=
  lin (aff (act a b1) wl bl) w2

/-- After the second aggregation: bias and tanh, the affine output layer, and the maximum of every column over all nodes. -/
def stage2 (a : (⟨2, ![50000, 128]⟩ : Shape).Idx → EReal) (b2 : (⟨1, ![128]⟩ : Shape).Idx → EReal)
    (wo : (⟨2, ![128, 64]⟩ : Shape).Idx → EReal) (bo : (⟨1, ![64]⟩ : Shape).Idx → EReal) :
    (⟨2, ![1, 64]⟩ : Shape).Idx → EReal :=
  colMax (aff (act a b2) wo bo)

/-- A matrix product read at a row and a column. -/
theorem lin_ix2 {n K m : ℕ} (x : (⟨2, ![n, K]⟩ : Shape).Idx → EReal) (w : (⟨2, ![K, m]⟩ : Shape).Idx → EReal)
    (p : Fin n) (c : Fin m) : lin x w (ix2 p c) = ∑ k : Fin K, x (ix2 p k) * w (ix2 k c) := rfl

/-- The activation read at a row and a column. -/
theorem act_ix2 {n m : ℕ} (a : (⟨2, ![n, m]⟩ : Shape).Idx → EReal) (b : (⟨1, ![m]⟩ : Shape).Idx → EReal)
    (p : Fin n) (c : Fin m) : act a b (ix2 p c) = Ideal.tanh (a (ix2 p c) + b (ix1 c)) := rfl

/-- The affine layer read at a row and a column. -/
theorem aff_ix2 {n K m : ℕ} (x : (⟨2, ![n, K]⟩ : Shape).Idx → EReal) (w : (⟨2, ![K, m]⟩ : Shape).Idx → EReal)
    (b : (⟨1, ![m]⟩ : Shape).Idx → EReal) (p : Fin n) (c : Fin m) :
    aff x w b (ix2 p c) = (∑ k : Fin K, x (ix2 p k) * w (ix2 k c)) + b (ix1 c) := rfl

/-- The column maxima read at a column. -/
theorem colMax_ix2 {n m : ℕ} (h : (⟨2, ![n, m]⟩ : Shape).Idx → EReal) (z : Fin 1) (c : Fin m) :
    colMax h (ix2 z c) = (Finset.univ : Finset (Fin n)).fold max ⊥ (fun p => h (ix2 p c)) := rfl

end Cert.Gcn

end
-- ==== Proof.Agg.lean ====
/-
  The aggregation along the graph's edges, as one function of a node-feature matrix: gather the rows at the edges'
  source nodes (the self loops appended), scale each edge's row by its norm, and scatter-add the rows into their
  destination nodes. Both programs apply this same chain of host operations, to the same edge list; it is kept as
  one function and never opened. It is spelt with the reference's own operations (its run read one operation at a time).
-/
import proofs.«117327_j28965259444614_2_alg».proof.Proof.RefReadP

noncomputable section

namespace Cert.ReferenceIdeal.Agg

open Cert.ReferenceIdeal Idealize.ShloMosaic Cert.ReferenceIdeal.ReadP

/-- The aggregation of a feature matrix `h` along the edges `ei`: the scatter-add, into zeros at the destination nodes,
    of the gathered source rows times the edge norms. -/
def agg (ei : (⟨S2x800000, .i32⟩ : BufTy).Contents (Elt Ideal)) (h : (⟨S50000x128, .f32⟩ : BufTy).Contents (Elt Ideal)) :
    (⟨S50000x128, .f32⟩ : BufTy).Contents (Elt Ideal) :=
  Host.scatterAdd (F := Ideal) scatter_S50000x128_S850000x1_S850000x128_1_0_0_1 (val_main_v43 (F := Ideal)) (val_main_v44 (F := Ideal) ei)
    (mulf (F := Ideal) (φ := .f32) (Host.gather gather_S50000x128_S850000x1_S850000x128_1_0_n_n_0_1_1128 h (val_main_v38 (F := Ideal) ei))
      (val_main_v41 (F := Ideal) ei))

/-- The reference's first aggregation is `agg` of its first product. -/
theorem v45_eq (x0 : (⟨S50000x128, .f32⟩ : BufTy).Contents (Elt Ideal)) (x1 : (⟨S2x800000, .i32⟩ : BufTy).Contents (Elt Ideal))
    (x2 : (⟨S128x128, .f32⟩ : BufTy).Contents (Elt Ideal)) :
    val_main_v45 (F := Ideal) x0 x1 x2 = agg x1 (val_main_v32 (F := Ideal) x0 x2) := rfl

end Cert.ReferenceIdeal.Agg

end
-- ==== Proof.RefSide.lean ====
/-
  The reference program is the specification.

  The reference is a two-layer graph convolution network: the node features times the first weights, aggregated along
  the edges, shifted by a bias and squashed by tanh; an affine hidden layer; the second weights, the same aggregation,
  bias and tanh; an affine output layer; and the maximum of every output column over all nodes. Read one operation at a
  time, each matrix product is the sum over the contraction index of the operands' products, each bias is a vector
  broadcast to one row and then down the rows (so at (p, c) it reads entry c), and the final reduce is a fold of max over
  the rows starting from the constant that denotes −∞, which is ⊥ among the extended reals: the column maximum.

  The edge norms are computed twice, by the same operations in the same order from the same edge list, so the second
  aggregation is the same function of its feature matrix as the first. The aggregation itself is never opened. What is
  left between and around the two aggregations are exactly the three stages of the specification.
-/
import proofs.«117327_j28965259444614_2_alg».proof.Proof.Spec
import proofs.«117327_j28965259444614_2_alg».proof.Proof.Agg

noncomputable section

open scoped BigOperators

namespace Cert.ReferenceIdeal.RefSide

open Cert.ReferenceIdeal Cert.ReferenceIdeal.Gen Cert.ReferenceIdeal.ReadP Idealize.ShloMosaic Idealize.ShloMosaic.ValueIdx

/-! ## The matrix products -/

/-- The reference's product of a 50000 × 128 matrix with a 128 × 128 one (its first `dot_general`, read for any two
    operands) is the matrix product of the specification: entry (p, c) is `∑ k, a (p, k) * w (k, c)`. -/
theorem lin128 (a : (⟨S50000x128, .f32⟩ : BufTy).Contents (Elt Ideal)) (w : (⟨S128x128, .f32⟩ : BufTy).Contents (Elt Ideal)) :
    val_main_v32 (F := Ideal) a w = Cert.Gcn.lin a w := by
  funext i
  obtain ⟨p, c, rfl⟩ : ∃ (p : Fin 50000) (c : Fin 128), i = ix2 p c := ⟨i 0, i 1, eq_ix2 i⟩
  refine (val_main_v32_apply a w (ix2 p c)).trans ?_
  refine Finset.sum_congr rfl fun k _ => ?_
  have el : lidx_main_v32 (ix2 p c) k = ix2 p k := funext fun a => Fin.ext (by match a with | ⟨0, _⟩ => rfl | ⟨1, _⟩ => rfl)
  have er : ridx_main_v32 (ix2 p c) k = ix2 k c := funext fun a => Fin.ext (by match a with | ⟨0, _⟩ => rfl | ⟨1, _⟩ => rfl)
  rw [el, er]

/-- The reference's product of a 50000 × 128 matrix with a 128 × 64 one (its last `dot_general`), for any two operands,
    read at an index: the sum over the contraction index of the products. -/
theorem dot64_apply (a : (⟨S50000x128, .f32⟩ : BufTy).Contents (Elt Ideal)) (w : (⟨S128x64, .f32⟩ : BufTy).Contents (Elt Ideal)) (i : S50000x64.Idx) :
    Host.dotGeneral (F := Ideal) (φ₁ := .f32) (φ₂ := .f32) dot_S50000x128_S128x64_S50000x64_1_0_0_1_n_n none a w i = ∑ k : Fin 128, a (lidx_main_v97 i k) * w (ridx_main_v97 i k) := by
  simp only [Host.dotGeneral]
  rw [Ideal.dotGeneral_apply, ← Equiv.sum_comp (ValueIdx.contrEquiv1 dot_S50000x128_S128x64_S50000x64_1_0_0_1_n_n 128 rfl rfl).symm]
  refine Finset.sum_congr rfl fun k _ => ?_
  have hk := ValueIdx.contrEquiv1_symm_val dot_S50000x128_S128x64_S50000x64_1_0_0_1_n_n 128 rfl rfl k
  have el : dot_S50000x128_S128x64_S50000x64_1_0_0_1_n_n.lhsIdx i ((ValueIdx.contrEquiv1 dot_S50000x128_S128x64_S50000x64_1_0_0_1_n_n 128 rfl rfl).symm k) = lidx_main_v97 i k := funext fun a => Fin.ext (by
    match a with
    | ⟨0, _⟩ => exact lhs_main_v97_0 _ _
    | ⟨1, _⟩ => exact (lhs_main_v97_1 _ _).trans hk)
  have er : dot_S50000x128_S128x64_S50000x64_1_0_0_1_n_n.rhsIdx i ((ValueIdx.contrEquiv1 dot_S50000x128_S128x64_S50000x64_1_0_0_1_n_n 128 rfl rfl).symm k) = ridx_main_v97 i k := funext fun a => Fin.ext (by
    match a with
    | ⟨0, _⟩ => exact (rhs_main_v97_0 _ _).trans hk
    | ⟨1, _⟩ => exact rhs_main_v97_1 _ _)
  rw [el, er]

/-- That product is the matrix product of the specification. -/
theorem lin64 (a : (⟨S50000x128, .f32⟩ : BufTy).Contents (Elt Ideal)) (w : (⟨S128x64, .f32⟩ : BufTy).Contents (Elt Ideal)) :
    Host.dotGeneral (F := Ideal) (φ₁ := .f32) (φ₂ := .f32) dot_S50000x128_S128x64_S50000x64_1_0_0_1_n_n none a w = Cert.Gcn.lin a w := by
  funext i
  obtain ⟨p, c, rfl⟩ : ∃ (p : Fin 50000) (c : Fin 64), i = ix2 p c := ⟨i 0, i 1, eq_ix2 i⟩
  refine (dot64_apply a w (ix2 p c)).trans ?_
  refine Finset.sum_congr rfl fun k _ => ?_
  have el : lidx_main_v97 (ix2 p c) k = ix2 p k := funext fun a => Fin.ext (by match a with | ⟨0, _⟩ => rfl | ⟨1, _⟩ => rfl)
  have er : ridx_main_v97 (ix2 p c) k = ix2 k c := funext fun a => Fin.ext (by match a with | ⟨0, _⟩ => rfl | ⟨1, _⟩ => rfl)
  rw [el, er]

/-! ## The biases -/

/-- A bias of 128 entries broadcast to one row and then down the 50000 rows reads, at (p, c), its entry c. -/
theorem bias128 (b : (⟨S128, .f32⟩ : BufTy).Contents (Elt Ideal)) (p : Fin 50000) (c : Fin 128) :
    val_main_v47 (F := Ideal) b (ix2 p c) = b (ix1 c) := by
  rw [val_main_v47_apply, val_main_v46_apply]
  refine congrArg b (funext fun a => Fin.ext ?_)
  match a with
  | ⟨0, _⟩ => rfl

/-- A bias of 64 entries broadcast to one row and then down the 50000 rows reads, at (p, c), its entry c. -/
theorem bias64 (b : (⟨S64, .f32⟩ : BufTy).Contents (Elt Ideal)) (p : Fin 50000) (c : Fin 64) :
    val_main_v99 (F := Ideal) b (ix2 p c) = b (ix1 c) := by
  rw [val_main_v99_apply, val_main_v98_apply]
  refine congrArg b (funext fun a => Fin.ext ?_)
  match a with
  | ⟨0, _⟩ => rfl

/-! ## Activation and affine layers -/

/-- Adding the broadcast bias and taking tanh is the activation of the specification. -/
theorem act_eq (a : (⟨S50000x128, .f32⟩ : BufTy).Contents (Elt Ideal)) (b : (⟨S128, .f32⟩ : BufTy).Contents (Elt Ideal)) :
    Host.tanh (F := Ideal) (addf (F := Ideal) (φ := .f32) a (val_main_v47 (F := Ideal) b)) = Cert.Gcn.act a b := by
  funext i
  obtain ⟨p, c, rfl⟩ : ∃ (p : Fin 50000) (c : Fin 128), i = ix2 p c := ⟨i 0, i 1, eq_ix2 i⟩
  show Ideal.tanh (a (ix2 p c) + val_main_v47 (F := Ideal) b (ix2 p c)) = Ideal.tanh (a (ix2 p c) + b (ix1 c))
  rw [bias128]

/-- A product with a 128 × 128 matrix plus the broadcast bias is the affine layer of the specification. -/
theorem aff128 (x : (⟨S50000x128, .f32⟩ : BufTy).Contents (Elt Ideal)) (w : (⟨S128x128, .f32⟩ : BufTy).Contents (Elt Ideal)) (b : (⟨S128, .f32⟩ : BufTy).Contents (Elt Ideal)) :
    addf (F := Ideal) (φ := .f32) (val_main_v32 (F := Ideal) x w) (val_main_v47 (F := Ideal) b) = Cert.Gcn.aff x w b := by
  funext i
  obtain ⟨p, c, rfl⟩ : ∃ (p : Fin 50000) (c : Fin 128), i = ix2 p c := ⟨i 0, i 1, eq_ix2 i⟩
  show val_main_v32 (F := Ideal) x w (ix2 p c) + val_main_v47 (F := Ideal) b (ix2 p c) = Cert.Gcn.lin x w (ix2 p c) + b (ix1 c)
  rw [lin128, bias128]

/-- A product with a 128 × 64 matrix plus the broadcast bias is the affine layer of the specification. -/
theorem aff64 (x : (⟨S50000x128, .f32⟩ : BufTy).Contents (Elt Ideal)) (w : (⟨S128x64, .f32⟩ : BufTy).Contents (Elt Ideal)) (b : (⟨S64, .f32⟩ : BufTy).Contents (Elt Ideal)) :
    addf (F := Ideal) (φ := .f32) (Host.dotGeneral (F := Ideal) (φ₁ := .f32) (φ₂ := .f32) dot_S50000x128_S128x64_S50000x64_1_0_0_1_n_n none x w) (val_main_v99 (F := Ideal) b) = Cert.Gcn.aff x w b := by
  funext i
  obtain ⟨p, c, rfl⟩ : ∃ (p : Fin 50000) (c : Fin 64), i = ix2 p c := ⟨i 0, i 1, eq_ix2 i⟩
  show Host.dotGeneral (F := Ideal) (φ₁ := .f32) (φ₂ := .f32) dot_S50000x128_S128x64_S50000x64_1_0_0_1_n_n none x w (ix2 p c) + val_main_v99 (F := Ideal) b (ix2 p c) = Cert.Gcn.lin x w (ix2 p c) + b (ix1 c)
  rw [lin64, bias64]

/-! ## The maximum over the nodes -/

/-- The reduced index c with row k put back is (k, c). -/
theorem lift_rows (h : S50000x64.Reduces [0] S64) (c : Fin 64) (k : Fin (S50000x64.size 0)) :
    h.lift (ix1 c) k = ix2 (⟨k.val, k.isLt⟩ : Fin 50000) c := by
  funext d; apply Fin.ext
  fin_cases d <;> rfl

/-- The reference's reduce with a maximum body over axis 0, from the constant that denotes −∞, then broadcast to one row:
    a fold of max from ⊥ over the rows, which is the column maximum of the specification. -/
theorem colMax_eq (h : (⟨S50000x64, .f32⟩ : BufTy).Contents (Elt Ideal)) :
    broadcastInDim S1x64 ![1] bcast_S64_S1x64_1
        (Host.reduce (FloatOps.maximumf (F := Ideal) (φ := .f32)) h (val_main_cst_22 (F := Ideal)) reducesTo_S50000x64_S64_d0 h_S_)
      = Cert.Gcn.colMax h := by
  funext i
  obtain ⟨z, c, rfl⟩ : ∃ (z : Fin 1) (c : Fin 64), i = ix2 z c := ⟨i 0, i 1, eq_ix2 i⟩
  have hR : S50000x64.Reduces [0] S64 := by decide
  refine (broadcastInDim_apply _ bcast_S64_S1x64_1 _ (ix2 z c) (ix1 c) (fun a => match a with
    | ⟨0, _⟩ => by show c.val = if (64 : Nat) = 1 then 0 else c.val; rw [if_neg (by decide)])).trans ?_
  rw [Host.reduce_eq_fold_single (FloatOps.maximumf (F := Ideal) (φ := .f32)) h _ reducesTo_S50000x64_S64_d0 hR h_S_]
  have hb : val_main_cst_22 (F := Ideal) (Shape.Idx.first h_S_) = (⊥ : EReal) := by
    show Ideal.ofBits .f32 0xFF800000#32 = ⊥
    simp [Ideal.ofBits, Ideal.ieee]
  have hf : (h ∘ hR.lift (ix1 c)) = fun k : Fin 50000 => h (ix2 k c) := funext fun k => congrArg h (lift_rows hR c k)
  exact congrArg₂ (fun (b : EReal) (f : Fin 50000 → EReal) => Finset.fold max b f (Finset.univ : Finset (Fin 50000))) hb hf

/-! ## The second aggregation -/

/-- The reference computes the edge norms a second time, from the same edge list by the same operations, and aggregates
    its second product with them exactly as it did the first: the second aggregation is the same function. -/
theorem agg2 (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) :
    val_main_v92 (F := Ideal) x0 x1 x2 x3 x4 x5 x6 = Agg.agg x1 (val_main_v79 (F := Ideal) x0 x1 x2 x3 x4 x5 x6) := by
  have e90 : val_main_v90 (F := Ideal) = val_main_v43 (F := Ideal) := rfl
  have e91 : val_main_v91 (F := Ideal) x1 = val_main_v44 (F := Ideal) x1 := rfl
  have e85 : val_main_v85 (F := Ideal) x1 = val_main_v38 (F := Ideal) x1 := rfl
  have e88 : val_main_v88 (F := Ideal) x1 = val_main_v41 (F := Ideal) x1 := rfl
  unfold val_main_v92 val_main_v89 val_main_v86 Agg.agg
  rw [e90, e91, e85, e88]

/-! ## The stages -/

/-- Between the aggregations, for any aggregated matrix a: bias and tanh, the affine hidden layer, the second weights. -/
theorem stage1_eq (a : (⟨S50000x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) :
    Host.dotGeneral (F := Ideal) (φ₁ := .f32) (φ₂ := .f32) dot_S50000x128_S128x128_S50000x128_1_0_0_1_n_n none
        (addf (F := Ideal) (φ := .f32)
          (Host.dotGeneral (F := Ideal) (φ₁ := .f32) (φ₂ := .f32) dot_S50000x128_S128x128_S50000x128_1_0_0_1_n_n none
            (Host.tanh (F := Ideal) (addf (F := Ideal) (φ := .f32) a (val_main_v47 (F := Ideal) x3))) x4)
          (val_main_v52 (F := Ideal) x5)) x6
      = Cert.Gcn.stage1 a x3 x4 x5 x6 := by
  show val_main_v32 (F := Ideal)
        (addf (F := Ideal) (φ := .f32)
          (val_main_v32 (F := Ideal)
            (Host.tanh (F := Ideal) (addf (F := Ideal) (φ := .f32) a (val_main_v47 (F := Ideal) x3))) x4)
          (val_main_v47 (F := Ideal) x5)) x6 = _
  rw [act_eq, aff128, lin128]
  rfl

/-- After the second aggregation, for any aggregated matrix a: bias and tanh, the affine output layer, the column maxima. -/
theorem stage2_eq (a : (⟨S50000x128, .f32⟩ : BufTy).Contents (Elt Ideal)) (x7 : (⟨S128, .f32⟩ : BufTy).Contents (Elt Ideal)) (x8 : (⟨S128x64, .f32⟩ : BufTy).Contents (Elt Ideal)) (x9 : (⟨S64, .f32⟩ : BufTy).Contents (Elt Ideal)) :
    broadcastInDim S1x64 ![1] bcast_S64_S1x64_1
        (Host.reduce (FloatOps.maximumf (F := Ideal) (φ := .f32))
          (addf (F := Ideal) (φ := .f32)
            (Host.dotGeneral (F := Ideal) (φ₁ := .f32) (φ₂ := .f32) dot_S50000x128_S128x64_S50000x64_1_0_0_1_n_n none
              (Host.tanh (F := Ideal) (addf (F := Ideal) (φ := .f32) a (val_main_v94 (F := Ideal) x7))) x8)
            (val_main_v99 (F := Ideal) x9))
          (val_main_cst_22 (F := Ideal)) reducesTo_S50000x64_S64_d0 h_S_)
      = Cert.Gcn.stage2 a x7 x8 x9 := by
  rw [colMax_eq, show val_main_v94 (F := Ideal) x7 = val_main_v47 (F := Ideal) x7 from rfl, act_eq, aff64]
  rfl

/-! ## The reference is the specification -/

/-- The whole reference: the three stages of the specification around the two aggregations. -/
theorem ref_eq (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x64, .f32⟩ : BufTy).Contents (Elt Ideal)) (x9 : (⟨S64, .f32⟩ : BufTy).Contents (Elt Ideal)) :
    Cert.ReferenceIdeal.ReadP.val_main_v102 (F := Ideal) x0 x1 x2 x3 x4 x5 x6 x7 x8 x9
      = Cert.Gcn.stage2 (Cert.ReferenceIdeal.Agg.agg x1 (Cert.Gcn.stage1 (Cert.ReferenceIdeal.Agg.agg x1 (Cert.Gcn.stage0 x0 x2)) x3 x4 x5 x6)) x7 x8 x9 := by
  have h1 : val_main_v45 (F := Ideal) x0 x1 x2 = Agg.agg x1 (Cert.Gcn.stage0 x0 x2) :=
    (Agg.v45_eq x0 x1 x2).trans (congrArg (Agg.agg x1) (lin128 x0 x2))
  have h2 : val_main_v79 (F := Ideal) x0 x1 x2 x3 x4 x5 x6
      = Cert.Gcn.stage1 (val_main_v45 (F := Ideal) x0 x1 x2) x3 x4 x5 x6 :=
    stage1_eq (val_main_v45 (F := Ideal) x0 x1 x2) x3 x4 x5 x6
  have h3 : val_main_v102 (F := Ideal) x0 x1 x2 x3 x4 x5 x6 x7 x8 x9
      = Cert.Gcn.stage2 (val_main_v92 (F := Ideal) x0 x1 x2 x3 x4 x5 x6) x7 x8 x9 :=
    stage2_eq (val_main_v92 (F := Ideal) x0 x1 x2 x3 x4 x5 x6) x7 x8 x9
  rw [h3, agg2, h2, h1]

end Cert.ReferenceIdeal.RefSide

end
-- ==== Proof.Result.lean ====
/-
  The network's output as one function of the arrays the program is launched with: the three dense stages with the
  edge aggregation between them.
-/
import proofs.«117327_j28965259444614_2_alg».proof.KernelIdeal
import proofs.«117327_j28965259444614_2_alg».proof.Proof.Spec
import proofs.«117327_j28965259444614_2_alg».proof.Proof.Agg

noncomputable section

namespace Cert.KernelIdeal.Result

open Cert.KernelIdeal Idealize.ShloMosaic Idealize.SL.Sem

/-- The [1, 64] result: the column maxima of the output layer, of the twice aggregated features, of the argument arrays
    in the launch memory `m` on device `c`. -/
def value (m : (ℓ : Loc nD τ sig) → Buf (Elt Ideal) ℓ) (c : Dev nD) : (⟨2, ![1, 64]⟩ : Shape).Idx → EReal :=
  Cert.Gcn.stage2
    (Cert.ReferenceIdeal.Agg.agg (m ((c.tc : Thread nD τ).loc main_arg1))
      (Cert.Gcn.stage1
        (Cert.ReferenceIdeal.Agg.agg (m ((c.tc : Thread nD τ).loc main_arg1))
          (Cert.Gcn.stage0 (m ((c.tc : Thread nD τ).loc main_arg0)) (m ((c.tc : Thread nD τ).loc main_arg2))))
        (m ((c.tc : Thread nD τ).loc main_arg3)) (m ((c.tc : Thread nD τ).loc main_arg4))
        (m ((c.tc : Thread nD τ).loc main_arg5)) (m ((c.tc : Thread nD τ).loc main_arg6))))
    (m ((c.tc : Thread nD τ).loc main_arg7)) (m ((c.tc : Thread nD τ).loc main_arg8))
    (m ((c.tc : Thread nD τ).loc main_arg9))

end Cert.KernelIdeal.Result

end
-- ==== Proof.Assemble.lean ====
/-
  The certificate's five claims, from the pieces.

  The two programs and the word-level kernel run without a fault and leave their arguments as launched: that is each
  program's frame. Nothing was rewritten between the kernel and its idealization. And over the extended reals the
  idealized kernel and the idealized reference, launched on memories that agree on the ten argument arrays, end with
  the same [1, 64] result: both leave the network's output as ONE function of the argument arrays — the column maxima
  of the output layer, of the twice aggregated features. For the reference this is its run read one operation at a time
  and regrouped into the three dense stages around the two aggregations; for the kernel it is the fold of its host
  operations and its three regions' write-backs, which enters here as the hypothesis `hK`.
-/
import proofs.«117327_j28965259444614_2_alg».proof.Defs
import proofs.«117327_j28965259444614_2_alg».proof.Proof.Gen.Kernel.Frame
import proofs.«117327_j28965259444614_2_alg».proof.Proof.Gen.KernelIdeal.Frame
import proofs.«117327_j28965259444614_2_alg».proof.Proof.Gen.ReferenceIdeal
import proofs.«117327_j28965259444614_2_alg».proof.Proof.Gen.Pre_finite_inputs
import proofs.«117327_j28965259444614_2_alg».proof.Proof.RunNamed
import proofs.«117327_j28965259444614_2_alg».proof.Proof.RefRunP
import proofs.«117327_j28965259444614_2_alg».proof.Proof.RefReadP
import proofs.«117327_j28965259444614_2_alg».proof.Proof.RefSide
import proofs.«117327_j28965259444614_2_alg».proof.Proof.Result

noncomputable section

namespace Cert.Proof.Assemble

open Idealize.ShloMosaic Idealize.ShloMosaic.TcCoe Idealize.SL.Sem

/-- The word-level kernel runs and leaves its arguments as launched. -/
theorem frame_K : Cert.frame_Kernel := fun m ρ _ => Cert.Kernel.Gen.frame m ρ

/-- So does its idealization. -/
theorem frame_KI : Cert.frame_KernelIdeal := fun m ρ _ => Cert.KernelIdeal.Gen.frame m ρ

/-- The reference has no kernel: its frame is its run with the result dropped. -/
theorem frame_RI : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- The reference's result, launched on a memory that agrees with the kernel's on the ten arguments, is the network's
    output as a function of the KERNEL's argument arrays: its run read one operation at a time, regrouped into the three
    stages around the two aggregations, and the arguments replaced by the kernel's. Whole arrays throughout: nothing is
    read at an index. -/
theorem ref_value (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.ReferenceIdeal.ValueP.res_main_v102 m' c = Cert.KernelIdeal.Result.value m c := by
  obtain ⟨h0, h1, h2, h3, h4, h5, h6, h7, h8, h9⟩ := hagree
  refine (Cert.ReferenceIdeal.ReadP.val_main_v102_eq m' c).trans ?_
  rw [h0, h1, h2, h3, h4, h5, h6, h7, h8, h9]
  refine (Cert.ReferenceIdeal.RefSide.ref_eq _ _ _ _ _ _ _ _ _ _).trans ?_
  unfold Cert.KernelIdeal.Result.value
  rfl

/-- Over the extended reals the two programs end with equal results and unchanged arguments, given that the kernel's
    result buffer ends at the network's output (`hK`: the fold of the kernel program's host operations and write-backs,
    read). -/
theorem algebraic_of
    (hK : ∀ (m : (ℓ : Loc Cert.KernelIdeal.nD Cert.KernelIdeal.τ Cert.KernelIdeal.sig) → Buf (Elt Ideal) ℓ)
      (ρ : Dev Cert.KernelIdeal.nD → PrngReg) (c : Dev Cert.KernelIdeal.nD),
      Cert.KernelIdeal.Gen.W8 m ρ c (Proc.devRef .tc Cert.KernelIdeal.main_v70) = Cert.KernelIdeal.Result.value m c) :
    Cert.algebraic_KernelIdeal_ReferenceIdeal := by
  intro m ρ m' ρ' _ hagree
  refine ⟨fun c => Cert.KernelIdeal.Result.value m c, ?_, ?_⟩
  · exact (θ_run Cert.KernelIdeal.defs _ _).mono (fun r h c => ⟨(h c).1.trans (hK m ρ c), (h c).2⟩)
      (Cert.KernelIdeal.RunNamed.run_named m ρ)
  · exact (θ_run Cert.ReferenceIdeal.defs _ _).mono
      (fun r h c => ⟨(h c).1.trans (ref_value m m' c (hagree c)), (h c).2⟩)
      (Cert.ReferenceIdeal.ValueP.run (F := Ideal) m' ρ')

/-- The whole claim, under the same hypothesis. -/
theorem claim_of
    (hK : ∀ (m : (ℓ : Loc Cert.KernelIdeal.nD Cert.KernelIdeal.τ Cert.KernelIdeal.sig) → Buf (Elt Ideal) ℓ)
      (ρ : Dev Cert.KernelIdeal.nD → PrngReg) (c : Dev Cert.KernelIdeal.nD),
      Cert.KernelIdeal.Gen.W8 m ρ c (Proc.devRef .tc Cert.KernelIdeal.main_v70) = Cert.KernelIdeal.Result.value m c) :
    Cert.Claim :=
  ⟨Cert.Kernel.Gen.facts, Cert.KernelIdeal.Gen.facts, Cert.ReferenceIdeal.Gen.facts, Cert.Pre_finite_inputs.Gen.facts,
    frame_K, frame_KI, frame_RI, preserves, algebraic_of hK⟩

end Cert.Proof.Assemble

end
-- ==== Proof.LibCalled.lean ====
/-
  Values moved to and from a called function's buffers.

  The operations of a function called from a host program move each operand from its buffer's own type to the
  value's type, and each result back, along the equation between the two types.  Moving a value to a buffer's
  type and straight back is the identity, whatever the buffer and whatever the equation: with the equation
  eliminated both moves are the identity.  Stated for an arbitrary typed reference, so that no particular
  (possibly very large) array type is ever compared.
-/
import Idealize.ShloMosaic.Lib.StableHlo

namespace Cert.Called

open Idealize.ShloMosaic Idealize.ShloMosaic.StableHlo

variable {sig : RefSig} {Val : EltTy → Type}

/-- A value moved to a typed reference's buffer type and back is the value. -/
theorem ofBuf_toBuf {T : BufTy} (x : TRef sig T) (v : T.Contents Val) : x.ofBuf (x.toBuf v) = v := by
  obtain ⟨r, h1, h2, h3⟩ := x
  subst h1
  rfl

/-- Contents of a typed reference's buffer moved to the value's type and back are the contents. -/
theorem toBuf_ofBuf {T : BufTy} (x : TRef sig T) (v : x.ref.ty.Contents Val) : x.toBuf (x.ofBuf v) = v := by
  obtain ⟨r, h1, h2, h3⟩ := x
  subst h1
  rfl

end Cert.Called
-- ==== Proof.Glue.lean ====
/-
  What the kernel program's buffers hold at the entry of each region, as functions of the program's arguments: the
  host operations between the regions are the reference's own (the edge lists with the self loops appended, the
  degree norms, the gather, the scaling and the scatter-add), applied to what the region before left.
-/
import proofs.«117327_j28965259444614_2_alg».proof.Proof.Gen.KernelIdeal.Frame
import proofs.«117327_j28965259444614_2_alg».proof.Proof.Spec
import proofs.«117327_j28965259444614_2_alg».proof.Proof.Agg
import proofs.«117327_j28965259444614_2_alg».proof.Proof.LibCalled
import Idealize.ShloMosaic.Lib.StableHlo.Run

set_option maxRecDepth 16384

noncomputable section

namespace Cert.KernelIdeal.Glue

open Cert.KernelIdeal Cert.KernelIdeal.Gen Idealize.ShloMosaic Idealize.ShloMosaic.TcCoe
open Idealize.SL.Sem Idealize.ShloMosaic.StableHlo

variable (m : (ℓ : Loc nD τ sig) → Buf (Elt Ideal) ℓ) (ρ : Dev nD → PrngReg) (c : Dev nD)

/-- The degrees' comparison with zero, after the first stretch of host operations. -/
theorem W1_v12 : W1 m ρ c (Proc.devRef .tc main_v12)
    = Cert.ReferenceIdeal.ReadP.val_main_v12 (F := Ideal) (m ((c : Thread nD τ).loc main_arg1)) := by
  show StableHlo.after hostOps0 (W0 m ρ c) (Proc.devRef .tc main_v12) = _
  after_results
  rfl

/-- The inverse square roots of the degrees (clamped below by one), after the first stretch of host operations. -/
theorem W1_v15 : W1 m ρ c (Proc.devRef .tc main_v15)
    = Cert.ReferenceIdeal.ReadP.val_main_v15 (F := Ideal) (m ((c : Thread nD τ).loc main_arg1)) := by
  show StableHlo.after hostOps0 (W0 m ρ c) (Proc.devRef .tc main_v15) = _
  after_results
  rfl

/-- The two node lists after the first stretch. -/
theorem W1_v3 : W1 m ρ c (Proc.devRef .tc main_v3)
    = Cert.ReferenceIdeal.ReadP.val_main_v3 (F := Ideal) (m ((c : Thread nD τ).loc main_arg1)) := by
  show StableHlo.after hostOps0 (W0 m ρ c) (Proc.devRef .tc main_v3) = _
  after_results
  rfl
theorem W1_v6 : W1 m ρ c (Proc.devRef .tc main_v6)
    = Cert.ReferenceIdeal.ReadP.val_main_v6 (F := Ideal) (m ((c : Thread nD τ).loc main_arg1)) := by
  show StableHlo.after hostOps0 (W0 m ρ c) (Proc.devRef .tc main_v6) = _
  after_results
  rfl

/-- The constant zero the select falls back to, after the first stretch. -/
theorem W1_cst3 : W1 m ρ c (Proc.devRef .tc main_cst_3) = Cert.ReferenceIdeal.ReadP.val_main_cst_3 (F := Ideal) := by
  show StableHlo.after hostOps0 (W0 m ρ c) (Proc.devRef .tc main_cst_3) = _
  after_results
  rfl

/-- The second stretch of host operations, from any contents: the inverse square-root degrees, zero where a node has no
    edge (a select). It is a called function's body: each operand is moved from its buffer's type to the value's type
    and the result back, along equations between equal types; every such move is the identity. -/
theorem ops01_v16 (X : Valuation τ sig (Elt Ideal)) (x1 : (⟨Cert.ReferenceIdeal.S2x800000, .i32⟩ : BufTy).Contents (Elt Ideal))
    (h12 : X (Proc.devRef .tc main_v12) = Cert.ReferenceIdeal.ReadP.val_main_v12 (F := Ideal) x1)
    (h15 : X (Proc.devRef .tc main_v15) = Cert.ReferenceIdeal.ReadP.val_main_v15 (F := Ideal) x1)
    (hc : X (Proc.devRef .tc main_cst_3) = Cert.ReferenceIdeal.ReadP.val_main_cst_3 (F := Ideal)) :
    StableHlo.after hostOps0_1 X (Proc.devRef .tc main_v16) = Cert.ReferenceIdeal.ReadP.val_main_v16 (F := Ideal) x1 := by
  have t12 : ∀ v : (⟨S50000, .i1⟩ : BufTy).Contents (Elt Ideal),
      (TRef.of (sig := sig) (T := ⟨S50000, .i1⟩) main_v12).toBuf v = v := fun v => eq_of_heq (cast_heq _ _)
  have t15 : ∀ v : (⟨S50000, .f32⟩ : BufTy).Contents (Elt Ideal),
      (TRef.of (sig := sig) (T := ⟨S50000, .f32⟩) main_v15).toBuf v = v := fun v => eq_of_heq (cast_heq _ _)
  have tc : ∀ v : (⟨S_, .f32⟩ : BufTy).Contents (Elt Ideal),
      (TRef.of (sig := sig) (T := ⟨S_, .f32⟩) main_cst_3).toBuf v = v := fun v => eq_of_heq (cast_heq _ _)
  after_results
  rw [h12.trans (t12 _).symm, h15.trans (t15 _).symm, hc.trans (tc _).symm]
  simp only [Cert.Called.ofBuf_toBuf]
  refine (eq_of_heq (cast_heq _ _)).trans ?_
  rfl

/-- The second stretch writes neither node list. -/
theorem ops01_v3 (X : Valuation τ sig (Elt Ideal)) :
    StableHlo.after hostOps0_1 X (Proc.devRef .tc main_v3) = X (Proc.devRef .tc main_v3) := by
  after_results
theorem ops01_v6 (X : Valuation τ sig (Elt Ideal)) :
    StableHlo.after hostOps0_1 X (Proc.devRef .tc main_v6) = X (Proc.devRef .tc main_v6) := by
  after_results

theorem ops01_arg2 (X : Valuation τ sig (Elt Ideal)) :
    StableHlo.after hostOps0_1 X (Proc.devRef .tc main_arg2) = X (Proc.devRef .tc main_arg2) := by
  after_results

/-- The third stretch, from any contents: the edge norms, the product of the two end nodes' inverse square-root degrees
    gathered at the two node lists. -/
theorem ops02_v31 (X : Valuation τ sig (Elt Ideal)) (x1 : (⟨Cert.ReferenceIdeal.S2x800000, .i32⟩ : BufTy).Contents (Elt Ideal))
    (h16 : X (Proc.devRef .tc main_v16) = Cert.ReferenceIdeal.ReadP.val_main_v16 (F := Ideal) x1)
    (h3 : X (Proc.devRef .tc main_v3) = Cert.ReferenceIdeal.ReadP.val_main_v3 (F := Ideal) x1)
    (h6 : X (Proc.devRef .tc main_v6) = Cert.ReferenceIdeal.ReadP.val_main_v6 (F := Ideal) x1) :
    StableHlo.after hostOps0_2 X (Proc.devRef .tc main_v31) = Cert.ReferenceIdeal.ReadP.val_main_v31 (F := Ideal) x1 := by
  after_results_simp
  rw [h16, h3, h6]
  rfl

/-- The third stretch writes neither node list, and rounds the first weight matrix to bf16 (the identity on extended
    reals). -/
theorem ops02_v3 (X : Valuation τ sig (Elt Ideal)) :
    StableHlo.after hostOps0_2 X (Proc.devRef .tc main_v3) = X (Proc.devRef .tc main_v3) := by
  after_results
theorem ops02_v6 (X : Valuation τ sig (Elt Ideal)) :
    StableHlo.after hostOps0_2 X (Proc.devRef .tc main_v6) = X (Proc.devRef .tc main_v6) := by
  after_results
theorem ops02_v32 (X : Valuation τ sig (Elt Ideal)) :
    StableHlo.after hostOps0_2 X (Proc.devRef .tc main_v32) = X (Proc.devRef .tc main_arg2) := by
  after_results
  rfl

/-- The source-node list, the destination-node list and the edge norms, as the first region finds them. -/
theorem W3_v3 : W3 m ρ c (Proc.devRef .tc main_v3)
    = Cert.ReferenceIdeal.ReadP.val_main_v3 (F := Ideal) (m ((c : Thread nD τ).loc main_arg1)) :=
  (ops02_v3 (W2 m ρ c)).trans ((ops01_v3 (W1 m ρ c)).trans (W1_v3 m ρ c))
theorem W3_v6 : W3 m ρ c (Proc.devRef .tc main_v6)
    = Cert.ReferenceIdeal.ReadP.val_main_v6 (F := Ideal) (m ((c : Thread nD τ).loc main_arg1)) :=
  (ops02_v6 (W2 m ρ c)).trans ((ops01_v6 (W1 m ρ c)).trans (W1_v6 m ρ c))
theorem W3_v31 : W3 m ρ c (Proc.devRef .tc main_v31)
    = Cert.ReferenceIdeal.ReadP.val_main_v31 (F := Ideal) (m ((c : Thread nD τ).loc main_arg1)) :=
  ops02_v31 (W2 m ρ c) _
    (ops01_v16 (W1 m ρ c) _ (W1_v12 m ρ c) (W1_v15 m ρ c) (W1_cst3 m ρ c))
    ((ops01_v3 (W1 m ρ c)).trans (W1_v3 m ρ c)) ((ops01_v6 (W1 m ρ c)).trans (W1_v6 m ρ c))

/-- The references the later lemmas follow back through a stretch of host operations that does not write them: the
    arguments, the two node lists and the edge norms. -/
abbrev kept : List (Ref sig .tc) :=
  [main_arg3, main_arg4, main_arg5, main_arg6, main_arg7, main_arg8, main_arg9, main_v3, main_v6, main_v31]

/-- The host operations between the first and the second region write none of them. -/
theorem keep1 (X : Valuation τ sig (Elt Ideal)) (r : Ref sig .tc) (hr : r ∈ kept) :
    StableHlo.after hostOps1 X (Proc.devRef .tc r) = X (Proc.devRef .tc r) := by
  refine StableHlo.after_of_forall_not_mem (b := Proc.devRef .tc r) _ _ (List.forall_iff_forall_mem.mp ?_)
  simp only [hostOps1, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (fun e => by subst e; exact absurd hr (by decide))

/-- The host operations between the second and the third region write none of them. -/
theorem keep2 (X : Valuation τ sig (Elt Ideal)) (r : Ref sig .tc) (hr : r ∈ kept) :
    StableHlo.after hostOps2 X (Proc.devRef .tc r) = X (Proc.devRef .tc r) := by
  refine StableHlo.after_of_forall_not_mem (b := Proc.devRef .tc r) _ _ (List.forall_iff_forall_mem.mp ?_)
  simp only [hostOps2, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (fun e => by subst e; exact absurd hr (by decide))

/-- The arguments among them. -/
abbrev keptArgs : List (Ref sig .tc) :=
  [main_arg0, main_arg2, main_arg3, main_arg4, main_arg5, main_arg6, main_arg7, main_arg8, main_arg9]

/-- No host operation before the first region writes an argument. -/
theorem W3_arg (r : Ref sig .tc) (hr : r ∈ keptArgs) :
    W3 m ρ c (Proc.devRef .tc r) = m ((c : Thread nD τ).loc r) := by
  have k0 : StableHlo.after hostOps0 (W0 m ρ c) (Proc.devRef .tc r) = W0 m ρ c (Proc.devRef .tc r) := by
    refine StableHlo.after_of_forall_not_mem (b := Proc.devRef .tc r) _ _ (List.forall_iff_forall_mem.mp ?_)
    simp only [hostOps0, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (fun e => by subst e; exact absurd hr (by decide))
  have k1 : StableHlo.after hostOps0_1 (W1 m ρ c) (Proc.devRef .tc r) = W1 m ρ c (Proc.devRef .tc r) := by
    refine StableHlo.after_of_forall_not_mem (b := Proc.devRef .tc r) _ _ (List.forall_iff_forall_mem.mp ?_)
    simp only [hostOps0_1, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (fun e => by subst e; exact absurd hr (by decide))
  have k2 : StableHlo.after hostOps0_2 (W2 m ρ c) (Proc.devRef .tc r) = W2 m ρ c (Proc.devRef .tc r) := by
    refine StableHlo.after_of_forall_not_mem (b := Proc.devRef .tc r) _ _ (List.forall_iff_forall_mem.mp ?_)
    simp only [hostOps0_2, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (fun e => by subst e; exact absurd hr (by decide))
  exact k2.trans (k1.trans k0)

/-- The first weight matrix as the first region finds it: rounded to bf16, the identity on extended reals. -/
theorem W3_v32 : W3 m ρ c (Proc.devRef .tc main_v32) = m ((c : Thread nD τ).loc main_arg2) := by
  refine (ops02_v32 (W2 m ρ c)).trans ?_
  have k0 : StableHlo.after hostOps0 (W0 m ρ c) (Proc.devRef .tc main_arg2) = W0 m ρ c (Proc.devRef .tc main_arg2) := by
    after_results
  have k1 : StableHlo.after hostOps0_1 (StableHlo.after hostOps0 (W0 m ρ c)) (Proc.devRef .tc main_arg2)
      = StableHlo.after hostOps0 (W0 m ρ c) (Proc.devRef .tc main_arg2) := ops01_arg2 _
  exact k1.trans k0

end Cert.KernelIdeal.Glue

end
-- ==== Proof.GlueOps.lean ====
/-
  The two stretches of host operations between the kernel program's regions, read over any contents of the buffers.

  Each stretch aggregates a node-feature matrix along the edges of the graph: it gathers the rows at the edges' source
  nodes (negative indices wrapped by the node count), scales every edge's row by the edge's norm broadcast along the row,
  and scatter-adds the rows into zeros at the destination nodes. These are the operations of the reference's aggregation
  in the same order, applied to the same two node lists and the same edge norms, so the result is that one function of
  the feature matrix; the gather and the scatter-add are never opened. The feature matrix is kept at a narrower float
  type and widened after the gather, which changes nothing on extended reals. Each stretch then reshapes two bias
  vectors to one-row matrices (read back as the vectors they were) and narrows two weight matrices (one in the second
  stretch), which again changes nothing on extended reals.
-/
import proofs.«117327_j28965259444614_2_alg».proof.Proof.Gen.KernelIdeal.Frame
import proofs.«117327_j28965259444614_2_alg».proof.Proof.Spec
import proofs.«117327_j28965259444614_2_alg».proof.Proof.Agg
import Idealize.ShloMosaic.Lib.StableHlo.Run
import Idealize.ShloMosaic.Lib.ValueLayout

set_option maxRecDepth 16384

noncomputable section

namespace Cert.KernelIdeal.GlueOps

open Cert.KernelIdeal Cert.KernelIdeal.Gen Idealize.ShloMosaic Idealize.ShloMosaic.TcCoe
open Idealize.SL.Sem Idealize.ShloMosaic.StableHlo Idealize.ShloMosaic.ValueIdx

/-! ## Between the first and the second region -/

/-- The first stretch's scatter-add is the aggregation of the matrix the first region left, given that the two node lists and the edge norms are the reference's. -/
theorem ops1_v47 (X : Valuation τ sig (Elt Ideal)) (x1 : (⟨Cert.ReferenceIdeal.S2x800000, .i32⟩ : BufTy).Contents (Elt Ideal))
    (h3 : X (Proc.devRef .tc main_v3) = Cert.ReferenceIdeal.ReadP.val_main_v3 (F := Ideal) x1)
    (h6 : X (Proc.devRef .tc main_v6) = Cert.ReferenceIdeal.ReadP.val_main_v6 (F := Ideal) x1)
    (h31 : X (Proc.devRef .tc main_v31) = Cert.ReferenceIdeal.ReadP.val_main_v31 (F := Ideal) x1) :
    StableHlo.after hostOps1 X (Proc.devRef .tc main_v47) = Cert.ReferenceIdeal.Agg.agg x1 (X (Proc.devRef .tc main_v33)) := by
  after_results_simp
  rw [h3, h6, h31]
  rfl

/-- The first bias as a one-row matrix, read back as a vector, is the first bias. -/
theorem ops1_v48 (X : Valuation τ sig (Elt Ideal)) :
    Cert.Gcn.rowOf (StableHlo.after hostOps1 X (Proc.devRef .tc main_v48)) = X (Proc.devRef .tc main_arg3) := by
  after_results_simp
  funext j
  obtain ⟨c, rfl⟩ : ∃ c : Fin 128, j = ix1 c := ⟨j 0, eq_ix1 j⟩
  exact shapeCast_a_1a_apply (X (Proc.devRef .tc main_arg3)) shapeCasts_S128_S1x128 0 c

/-- The hidden layer's bias as a one-row matrix, read back as a vector, is that bias. -/
theorem ops1_v49 (X : Valuation τ sig (Elt Ideal)) :
    Cert.Gcn.rowOf (StableHlo.after hostOps1 X (Proc.devRef .tc main_v49)) = X (Proc.devRef .tc main_arg5) := by
  after_results_simp
  funext j
  obtain ⟨c, rfl⟩ : ∃ c : Fin 128, j = ix1 c := ⟨j 0, eq_ix1 j⟩
  exact shapeCast_a_1a_apply (X (Proc.devRef .tc main_arg5)) shapeCasts_S128_S1x128 0 c

/-- The hidden layer's weights narrowed are the weights. -/
theorem ops1_v50 (X : Valuation τ sig (Elt Ideal)) :
    StableHlo.after hostOps1 X (Proc.devRef .tc main_v50) = X (Proc.devRef .tc main_arg4) := by
  after_results_simp
  rfl

/-- The second convolution's weights narrowed are the weights. -/
theorem ops1_v51 (X : Valuation τ sig (Elt Ideal)) :
    StableHlo.after hostOps1 X (Proc.devRef .tc main_v51) = X (Proc.devRef .tc main_arg6) := by
  after_results_simp
  rfl

/-! ## Between the second and the third region -/

/-- The second stretch's scatter-add is the same aggregation, of the matrix the second region left. -/
theorem ops2_v66 (X : Valuation τ sig (Elt Ideal)) (x1 : (⟨Cert.ReferenceIdeal.S2x800000, .i32⟩ : BufTy).Contents (Elt Ideal))
    (h3 : X (Proc.devRef .tc main_v3) = Cert.ReferenceIdeal.ReadP.val_main_v3 (F := Ideal) x1)
    (h6 : X (Proc.devRef .tc main_v6) = Cert.ReferenceIdeal.ReadP.val_main_v6 (F := Ideal) x1)
    (h31 : X (Proc.devRef .tc main_v31) = Cert.ReferenceIdeal.ReadP.val_main_v31 (F := Ideal) x1) :
    StableHlo.after hostOps2 X (Proc.devRef .tc main_v66) = Cert.ReferenceIdeal.Agg.agg x1 (X (Proc.devRef .tc main_v52)) := by
  after_results_simp
  rw [h3, h6, h31]
  rfl

/-- The second bias as a one-row matrix, read back as a vector, is the second bias. -/
theorem ops2_v67 (X : Valuation τ sig (Elt Ideal)) :
    Cert.Gcn.rowOf (StableHlo.after hostOps2 X (Proc.devRef .tc main_v67)) = X (Proc.devRef .tc main_arg7) := by
  after_results_simp
  funext j
  obtain ⟨c, rfl⟩ : ∃ c : Fin 128, j = ix1 c := ⟨j 0, eq_ix1 j⟩
  exact shapeCast_a_1a_apply (X (Proc.devRef .tc main_arg7)) shapeCasts_S128_S1x128 0 c

/-- The output layer's bias as a one-row matrix, read back as a vector, is that bias. -/
theorem ops2_v68 (X : Valuation τ sig (Elt Ideal)) :
    Cert.Gcn.rowOf (StableHlo.after hostOps2 X (Proc.devRef .tc main_v68)) = X (Proc.devRef .tc main_arg9) := by
  after_results_simp
  funext j
  obtain ⟨c, rfl⟩ : ∃ c : Fin 64, j = ix1 c := ⟨j 0, eq_ix1 j⟩
  exact shapeCast_a_1a_apply (X (Proc.devRef .tc main_arg9)) shapeCasts_S64_S1x64 0 c

/-- The output layer's weights narrowed are the weights. -/
theorem ops2_v69 (X : Valuation τ sig (Elt Ideal)) :
    StableHlo.after hostOps2 X (Proc.devRef .tc main_v69) = X (Proc.devRef .tc main_arg8) := by
  after_results_simp
  rfl

end Cert.KernelIdeal.GlueOps

end
-- ==== Proof.LibMatmul.lean ====
/-
  A plain matrix product read at an entry: for an `[n, K]` matrix times a `[K, m]` matrix accumulated
  into zero, entry `(p, c)` of the result is the sum over `k` of `lhs (p, k) * rhs (k, c)`, at the exact
  values. The dimension numbers enter only through four facts about where the operand indices come
  from (rows of the left operand from the result's rows, its columns from the contraction position;
  rows of the right operand from the contraction position, its columns from the result's columns).
-/
import Idealize.ShloMosaic.Lib.ValueIdx
import Idealize.ShloMosaic.PureOps.Ideal.Laws

noncomputable section

namespace Cert.PlainDot

open Idealize.ShloMosaic Idealize.ShloMosaic.ValueIdx

/-- Entry `(p, c)` of a plain product into a zero accumulator is `∑ k, lhs (p, k) * rhs (k, c)`. -/
theorem matmul_zero_apply {n K m : ℕ} {φ₁ φ₂ : FTy}
    (D : DotDims ⟨2, ![n, K]⟩ ⟨2, ![K, m]⟩ ⟨2, ![n, m]⟩) (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![n, K]⟩ φ₁) (rhs : FVec Ideal ⟨2, ![K, m]⟩ φ₂) (p : Fin n) (c : Fin m) :
    matmul D prec lhs rhs (constant ⟨2, ![n, m]⟩ .f32 0x00000000#32) (ix2 p c)
      = ∑ k : Fin K, lhs (ix2 p k) * rhs (ix2 k c) := by
  show FloatOps.matmul D prec lhs rhs (constant ⟨2, ![n, m]⟩ .f32 0x00000000#32) (ix2 p c) = _
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.PlainDot

end
-- ==== Proof.Region0.lean ====
/-
  The first kernel region: every grid point multiplies its block of 2000 rows of the feature matrix by the whole
  weight matrix, so the array the region leaves is the matrix product of the two arrays it found.
-/
import proofs.«117327_j28965259444614_2_alg».proof.Proof.Gen.KernelIdeal.Frame
import proofs.«117327_j28965259444614_2_alg».proof.Proof.Spec
import proofs.«117327_j28965259444614_2_alg».proof.Proof.LibMatmul
import Idealize.ShloMosaic.Lib.Pipeline.Value
import Idealize.ShloMosaic.Lib.ValueIdx

set_option maxRecDepth 16384

noncomputable section

namespace Cert.KernelIdeal.Region0

open Cert.KernelIdeal Cert.KernelIdeal.Gen Idealize.ShloMosaic Idealize.ShloMosaic.TcCoe Idealize.ShloMosaic.ValueIdx
open Idealize.SL.Sem Idealize.ShloMosaic.Pipeline

variable (V : (c : Dev nD) → (b : Ref sig .tc) → Buf (Elt Ideal) ((c : Thread nD τ).loc b))

theorem hz : (![0, 0] : Fin 2 → Nat) = fun _ => 0 := funext fun a => by fin_cases a <;> rfl

/-- The four facts about where a plain product's operand indices come from, for the [2000,128]·[128,128] record. -/
theorem dl0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem dl1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem dr0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem dr1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The body's stored value at row `p`, column `q` of the block: the row of the feature block against the column of the
    weight matrix (the two changes of float format are the identity on extended reals). -/
theorem pay_apply (x0 : Vec Ideal S2000x128 .f32) (x1 : Vec Ideal S128x128 .bf16) (p : Fin 2000) (q : Fin 128) :
    k0_pay1 x0 x1 (ix2 p q) = ∑ k : Fin 128, x0 (ix2 p k) * x1 (ix2 k q) := by
  unfold k0_pay1
  refine (Cert.PlainDot.matmul_zero_apply dot_S2000x128_S128x128_S2000x128_1_0_0_1_n_n none rfl rfl dl0 dl1 dr0 dr1
    (truncf .bf16 x0 bitsLt_bf16_f32) (shapeCast S128x128 x1 shapeCasts_S128x128_S128x128) p q).trans ?_
  rw [shapeCast_self]
  rfl

/-- The printed index maps over the grid: the feature window and the output window move together down the rows, the
    weight window stays on its one block. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What a point writes back is its block of the product of the two arrays the region found. -/
theorem flushed_eq (c : Dev nD) (t : Fin cfg0.N) :
    (dat0 V c).flushed 2 t
      = ((cfg0.win 2).blk t).view.read (Elt Ideal) (Cert.Gcn.stage0 (V c main_arg0) (V c main_v32)) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x128) hz]
  obtain ⟨e0, e1, e2, e3, e4, e5⟩ := idx_facts t
  funext j
  obtain ⟨p, q, rfl⟩ : ∃ (p : Fin 2000) (q : Fin 128), j = ix2 p q := ⟨j 0, j 1, eq_ix2 j⟩
  refine (pay_apply (iblk0 V c 0 t) (iblk0 V c 1 t) p q).trans ?_
  rw [View.read_apply]
  show _ = Cert.Gcn.lin (V c main_arg0) (V c main_v32) (((cfg0.win 2).blk t).view.emb (ix2 p q))
  unfold Cert.Gcn.lin
  refine Finset.sum_congr rfl fun k _ => ?_
  have h0 : ((cfg0.win 0).blk t).view.emb (ix2 p k)
      = ix2 (Cert.Gcn.row (((cfg0.win 2).blk t).view.emb (ix2 p q))) k := by
    funext a; apply Fin.ext
    match a with
    | ⟨0, _⟩ => show win0_0.index t (0 : Fin 2) * 2000 + 1 * p.val = win0_2.index t (0 : Fin 2) * 2000 + 1 * p.val; omega
    | ⟨1, _⟩ => show win0_0.index t (1 : Fin 2) * 128 + 1 * k.val = k.val; omega
  have h1 : ((cfg0.win 1).blk t).view.emb (ix2 k q)
      = ix2 k (Cert.Gcn.col (((cfg0.win 2).blk t).view.emb (ix2 p q))) := by
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  have e0' : iblk0 V c 0 t (ix2 p k)
      = V c main_arg0 (ix2 (Cert.Gcn.row (((cfg0.win 2).blk t).view.emb (ix2 p q))) k) := congrArg (V c main_arg0) h0
  have e1' : iblk0 V c 1 t (ix2 k q)
      = V c main_v32 (ix2 k (Cert.Gcn.col (((cfg0.win 2).blk t).view.emb (ix2 p q)))) := congrArg (V c main_v32) h1
  rw [e0', e1']

/-- An index of the output array is in a point's block iff each coordinate is in the block's range on its axis. -/
theorem mem_blk (t : Fin cfg0.N) (i : S50000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v33).slice (win0_2.rect t)).set ↔ _
  rw [View.set_slice_whole, Rect.mem_set_unit]
  exact Iff.rfl

/-- Every row of the output array lies in the block of the point numbered by the row divided by 2000. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have ht : (i 0).val / 2000 < cfg0.N := lt_of_lt_of_eq (by omega : (i 0).val / 2000 < 25) (show cfg0.N = 25 from N_0).symm
  obtain ⟨e0, e1, e2, e3, e4, e5⟩ := idx_facts ⟨(i 0).val / 2000, ht⟩
  refine ⟨⟨(i 0).val / 2000, ht⟩, flush0_2 _, ?_⟩
  rw [mem_blk]
  intro a
  match a with
  | ⟨0, _⟩ =>
    show win0_2.index ⟨(i 0).val / 2000, ht⟩ (0 : Fin 2) * 2000 ≤ (i 0).val
      ∧ (i 0).val < win0_2.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win0_2.index ⟨(i 0).val / 2000, ht⟩ (1 : Fin 2) * 128 ≤ (i 1).val
      ∧ (i 1).val < win0_2.index ⟨(i 0).val / 2000, ht⟩ (1 : Fin 2) * 128 + 128
    rw [e5]; omega

/-- The array the first region leaves: the product of the feature array and the weight array it found. -/
theorem final (c : Dev nD) :
    (dat0 V c).arrAt 2 cfg0.N = Cert.Gcn.stage0 (V c main_arg0) (V c main_v32) :=
  (dat0 V c).arrAt_eq_of_cover 2 _ (fun t _ => flushed_eq V c t) cover

end Cert.KernelIdeal.Region0

end
-- ==== Proof.Region1.lean ====
/-
  The second kernel region: every grid point takes its block of 2000 rows of the aggregated features, adds the first
  bias, applies tanh, multiplies by the hidden layer's weights, adds its bias, and multiplies by the second
  convolution's weights. The biases and the weight matrices are whole blocks that do not move with the grid, so
  the array the region leaves is that chain of the arrays it found, row by row.
-/
import proofs.«117327_j28965259444614_2_alg».proof.Proof.Gen.KernelIdeal.Frame
import proofs.«117327_j28965259444614_2_alg».proof.Proof.Spec
import proofs.«117327_j28965259444614_2_alg».proof.Proof.LibMatmul
import proofs.«117327_j28965259444614_2_alg».proof.Proof.Region0
import Idealize.ShloMosaic.Lib.Pipeline.Value
import Idealize.ShloMosaic.Lib.ValueIdx
import Idealize.ShloMosaic.Lib.ValueLayout

set_option maxRecDepth 16384

noncomputable section

namespace Cert.KernelIdeal.Region1

open Cert.KernelIdeal Cert.KernelIdeal.Gen Idealize.ShloMosaic Idealize.ShloMosaic.TcCoe Idealize.ShloMosaic.ValueIdx
open Idealize.SL.Sem Idealize.ShloMosaic.Pipeline
open Cert.KernelIdeal.Region0 (hz dl0 dl1 dr0 dr1)

variable (V : (c : Dev nD) → (b : Ref sig .tc) → Buf (Elt Ideal) ((c : Thread nD τ).loc b))

/-- A plain [2000,128]·[128,128] product into zero, read at a row and a column. -/
theorem mm_apply {φ₁ φ₂ : FTy} (a : FVec Ideal S2000x128 φ₁) (b : FVec Ideal S128x128 φ₂) (p : Fin 2000) (q : Fin 128) :
    matmul dot_S2000x128_S128x128_S2000x128_1_0_0_1_n_n none a b (constant S2000x128 .f32 0x00000000#32) (ix2 p q)
      = ∑ k : Fin 128, a (ix2 p k) * b (ix2 k q) :=
  Cert.PlainDot.matmul_zero_apply dot_S2000x128_S128x128_S2000x128_1_0_0_1_n_n none rfl rfl dl0 dl1 dr0 dr1 a b p q

/-- The same under the rounding to bf16, which is the identity on extended reals. -/
theorem mm_trunc_apply {φ₁ φ₂ : FTy} (a : FVec Ideal S2000x128 φ₁) (b : FVec Ideal S128x128 φ₂) (p : Fin 2000) (q : Fin 128) :
    truncf .bf16 (matmul dot_S2000x128_S128x128_S2000x128_1_0_0_1_n_n none a b (constant S2000x128 .f32 0x00000000#32))
        bitsLt_bf16_f32 (ix2 p q)
      = ∑ k : Fin 128, a (ix2 p k) * b (ix2 k q) :=
  mm_apply a b p q

/-- A rounded sum of two arrays read at an index is the sum of the entries. -/
theorem trunc_add_apply (M B : FVec Ideal S2000x128 .f32) (i : S2000x128.Idx) :
    truncf .bf16 (addf M B) bitsLt_bf16_f32 i = M i + B i := rfl

/-- The body's stored value at row `p`, column `q` of the block. -/
theorem pay_apply (x0 : Vec Ideal S2000x128 .f32) (x1 : Vec Ideal S1x128 .f32) (x2 : Vec Ideal S128x128 .bf16)
    (x3 : Vec Ideal S1x128 .f32) (x4 : Vec Ideal S128x128 .bf16) (p : Fin 2000) (q : Fin 128) :
    k1_pay1 x0 x1 x2 x3 x4 (ix2 p q)
      = ∑ k : Fin 128, ((∑ j : Fin 128, Ideal.tanh (x0 (ix2 p j) + x1 (ix2 (0 : Fin 1) j)) * x2 (ix2 j k))
          + x3 (ix2 (0 : Fin 1) k)) * x4 (ix2 k q) := by
  unfold k1_pay1
  simp only [shapeCast_self]
  refine (mm_trunc_apply _ x4 p q).trans ?_
  refine Finset.sum_congr rfl fun k _ => ?_
  refine congrArg (· * x4 (ix2 k q)) ?_
  refine (trunc_add_apply _ _ _).trans ?_
  rw [broadcastTo_1b_ab_apply]
  refine congrArg (· + x3 (ix2 (0 : Fin 1) k)) ?_
  refine (mm_apply (φ₁ := .bf16) (φ₂ := .bf16) _ x2 p k).trans ?_
  refine Finset.sum_congr rfl fun j _ => congrArg (· * x2 (ix2 j k)) ?_
  show Ideal.tanh (x0 (ix2 p j) + broadcastTo S2000x128 x1 broadcasts_S1x128_S2000x128 (ix2 p j)) = _
  rw [broadcastTo_1b_ab_apply]

/-- The printed index maps over the grid: the aggregated-feature window and the output window move together down the
    rows; the two bias rows and the two weight matrices stay on their one block. -/
theorem idx_facts : ∀ t : Fin cfg1.N, win1_0.index t (0 : Fin 2) = win1_5.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val
    ∧ win1_5.index t (1 : Fin 2) = 0 :=
  (by decide +kernel : ∀ t : Fin grid1.N, _)

/-- What a point writes back is its block of the chain of the arrays the region found. -/
theorem flushed_eq (c : Dev nD) (t : Fin cfg1.N) :
    (dat1 V c).flushed 5 t
      = ((cfg1.win 5).blk t).view.read (Elt Ideal)
          (Cert.Gcn.stage1 (V c main_v47) (Cert.Gcn.rowOf (V c main_v48)) (V c main_v50) (Cert.Gcn.rowOf (V c main_v49))
            (V c main_v51)) := by
  show (cfg1.win 5).cut (grid1.coords t) ((dat1 V c).after 5 t) = _
  rw [after1_5]
  unfold out1_5
  rw [View.canon_unit_zero hz]
  simp only [View.ld_unit_zero (S := S2000x128) hz, View.ld_unit_zero (S := S128x128) hz, View.ld_unit_zero (S := S1x128) hz]
  obtain ⟨e0, e1, e2, e3, e4, e5, e6, e7, e8, e9, e10, e11⟩ := idx_facts t
  funext y
  obtain ⟨p, q, rfl⟩ : ∃ (p : Fin 2000) (q : Fin 128), y = ix2 p q := ⟨y 0, y 1, eq_ix2 y⟩
  refine (pay_apply (iblk1 V c 0 t) (iblk1 V c 1 t) (iblk1 V c 2 t) (iblk1 V c 3 t) (iblk1 V c 4 t) p q).trans ?_
  rw [View.read_apply]
  -- the block reads, each at the array index the output's rectangle names
  have r0 : ∀ j : Fin 128, iblk1 V c 0 t (ix2 p j)
      = V c main_v47 (ix2 (Cert.Gcn.row (((cfg1.win 5).blk t).view.emb (ix2 p q))) j) := fun j =>
    congrArg (V c main_v47) (funext fun a => Fin.ext (by
      match a with
      | ⟨0, _⟩ => show win1_0.index t (0 : Fin 2) * 2000 + 1 * p.val = win1_5.index t (0 : Fin 2) * 2000 + 1 * p.val; omega
      | ⟨1, _⟩ => show win1_0.index t (1 : Fin 2) * 128 + 1 * j.val = j.val; omega))
  have r1 : ∀ j : Fin 128, iblk1 V c 1 t (ix2 (0 : Fin 1) j) = V c main_v48 (ix2 (0 : Fin 1) j) := fun j =>
    congrArg (V c main_v48) (funext fun a => Fin.ext (by
      match a with
      | ⟨0, _⟩ => show win1_1.index t (0 : Fin 2) * 1 + 1 * 0 = 0; omega
      | ⟨1, _⟩ => show win1_1.index t (1 : Fin 2) * 128 + 1 * j.val = j.val; omega))
  have r2 : ∀ j k : Fin 128, iblk1 V c 2 t (ix2 j k) = V c main_v50 (ix2 j k) := fun j k =>
    congrArg (V c main_v50) (funext fun a => Fin.ext (by
      match a with
      | ⟨0, _⟩ => show win1_2.index t (0 : Fin 2) * 128 + 1 * j.val = j.val; omega
      | ⟨1, _⟩ => show win1_2.index t (1 : Fin 2) * 128 + 1 * k.val = k.val; omega))
  have r3 : ∀ k : Fin 128, iblk1 V c 3 t (ix2 (0 : Fin 1) k) = V c main_v49 (ix2 (0 : Fin 1) k) := fun k =>
    congrArg (V c main_v49) (funext fun a => Fin.ext (by
      match a with
      | ⟨0, _⟩ => show win1_3.index t (0 : Fin 2) * 1 + 1 * 0 = 0; omega
      | ⟨1, _⟩ => show win1_3.index t (1 : Fin 2) * 128 + 1 * k.val = k.val; omega))
  have r4 : ∀ k : Fin 128, iblk1 V c 4 t (ix2 k q)
      = V c main_v51 (ix2 k (Cert.Gcn.col (((cfg1.win 5).blk t).view.emb (ix2 p q)))) := fun k =>
    congrArg (V c main_v51) (funext fun a => Fin.ext (by
      match a with
      | ⟨0, _⟩ => show win1_4.index t (0 : Fin 2) * 128 + 1 * k.val = k.val; omega
      | ⟨1, _⟩ => show win1_4.index t (1 : Fin 2) * 128 + 1 * q.val = win1_5.index t (1 : Fin 2) * 128 + 1 * q.val; omega))
  simp only [r0, r1, r2, r3, r4]
  rfl

/-- An index of the output array is in a point's block iff each coordinate is in the block's range on its axis. -/
theorem mem_blk (t : Fin cfg1.N) (i : S50000x128.Idx) :
    i ∈ ((cfg1.win 5).blk t).view.set ↔ ∀ a : Fin 2, win1_5.index t a * S2000x128.size a ≤ (i a).val
      ∧ (i a).val < win1_5.index t a * S2000x128.size a + S2000x128.size a := by
  show i ∈ ((View.whole main_v52).slice (win1_5.rect t)).set ↔ _
  rw [View.set_slice_whole, Rect.mem_set_unit]
  exact Iff.rfl

/-- Every row of the output array lies in the block of the point numbered by the row divided by 2000. -/
theorem cover (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have ht : (i 0).val / 2000 < cfg1.N := lt_of_lt_of_eq (by omega : (i 0).val / 2000 < 25) (show cfg1.N = 25 from N_1).symm
  obtain ⟨e0, e1, e2, e3, e4, e5, e6, e7, e8, e9, e10, e11⟩ := idx_facts ⟨(i 0).val / 2000, ht⟩
  refine ⟨⟨(i 0).val / 2000, ht⟩, flush1_5 _, ?_⟩
  rw [mem_blk]
  intro a
  match a with
  | ⟨0, _⟩ =>
    show win1_5.index ⟨(i 0).val / 2000, ht⟩ (0 : Fin 2) * 2000 ≤ (i 0).val
      ∧ (i 0).val < win1_5.index ⟨(i 0).val / 2000, ht⟩ (0 : Fin 2) * 2000 + 2000
    rw [e10]; show (i 0).val / 2000 * 2000 ≤ (i 0).val ∧ (i 0).val < (i 0).val / 2000 * 2000 + 2000; omega
  | ⟨1, _⟩ =>
    show win1_5.index ⟨(i 0).val / 2000, ht⟩ (1 : Fin 2) * 128 ≤ (i 1).val
      ∧ (i 1).val < win1_5.index ⟨(i 0).val / 2000, ht⟩ (1 : Fin 2) * 128 + 128
    rw [e11]; omega

/-- The array the second region leaves: bias, tanh, the hidden affine layer and the second weight matrix applied to the
    aggregated features it found, row by row. -/
theorem final (c : Dev nD) :
    (dat1 V c).arrAt 5 cfg1.N
      = Cert.Gcn.stage1 (V c main_v47) (Cert.Gcn.rowOf (V c main_v48)) (V c main_v50) (Cert.Gcn.rowOf (V c main_v49))
          (V c main_v51) :=
  (dat1 V c).arrAt_eq_of_cover 5 _ (fun t _ => flushed_eq V c t) cover

end Cert.KernelIdeal.Region1

end
-- ==== Proof.LibReadBack.lean ====
/-
  A general fact about a buffer that is stored whole several times and then loaded whole: the load reads the payload of
  the LAST store, whatever the earlier stores held. (An accumulator that is overwritten by each step of a fold and read
  back by the next is of this form.)
-/
import Idealize.ShloMosaic.Lib.Pipeline.Value

noncomputable section

namespace Cert.LibReadBack

open Idealize.ShloMosaic

/-- A load through the whole-shape rectangle at zero offsets, after a list of stores whose LAST one (the head of the
    list) went through that same rectangle, reads that store's payload: the earlier stores are all overwritten. -/
theorem readCov_cons_unit_zero {Val : EltTy → Type} [∀ e, Nonempty (Val e)] {S : Shape} {e : EltTy}
    {sig : RefSig} {κ : Kind} {sp : Space} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl,
    View.ld_unit_zero rfl]

end Cert.LibReadBack

end
-- ==== Proof.Region2.lean ====
/-
  The third kernel region: a running maximum over 25 tiles of 2000 nodes each.

  Grid point `t` sees rows `2000 t … 2000 t + 1999` of the [50000,128] node array, the whole [1,128] bias, the whole
  [128,64] weight matrix and the whole [1,64] output bias. For each of its rows it forms tanh (row + bias), multiplies by
  the weights and adds the output bias; it takes, column by column, the largest of these 2000 values, and then the
  larger of that and what the [1,64] output block already holds. The output block is the same at every point; the
  first point resets it to minus infinity, and it is written back once, after the last point.

  So after point `n` the output block holds, at every column, the least upper bound of the layer's values over the nodes
  `0 … 2000 (n + 1) - 1` (what bounds the block is exactly what bounds each of these values: `outsAt_le`), and after
  point 24 that is the maximum over all 50000 nodes: the array the region leaves is the column maxima of the layer.
-/
import proofs.«117327_j28965259444614_2_alg».proof.Proof.Gen.KernelIdeal.Frame
import proofs.«117327_j28965259444614_2_alg».proof.Proof.Spec
import proofs.«117327_j28965259444614_2_alg».proof.Proof.LibMatmul
import proofs.«117327_j28965259444614_2_alg».proof.Proof.LibReadBack
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

set_option maxRecDepth 16384

noncomputable section

namespace Cert.KernelIdeal.Region2

open Cert.KernelIdeal Cert.KernelIdeal.Gen Idealize.ShloMosaic Idealize.ShloMosaic.TcCoe Idealize.ShloMosaic.ValueIdx
open Idealize.SL.Sem Idealize.ShloMosaic.Pipeline

theorem hz : (![0, 0] : Fin 2 → Nat) = fun _ => 0 := funext fun a => by fin_cases a <;> rfl

/-! ## What the body leaves in the output block, case by case -/

section Pieces
variable {F : FTy → Type} [FloatOps F]

/-- At a point other than the first the body leaves, in the output block holding `xo`, its one store's value: the
    value computed from the four blocks it loads and from `xo`. -/
theorem out_B (c : Dev nD) (i : grid2.Coords) (a1 : Memref sig .tc .vmem S2000x128 .f32) (h1 : a1.IsWhole)
    (a2 : Memref sig .tc .vmem S1x128 .f32) (h2 : a2.IsWhole) (a3 : Memref sig .tc .vmem S128x64 .bf16) (h3 : a3.IsWhole)
    (a4 : Memref sig .tc .vmem S1x64 .f32) (h4 : a4.IsWhole) (a5 : Memref sig .tc .vmem S1x64 .f32) (h5 : a5.IsWhole)
    (hc : ¬cond2_0 i) (x0 : Vec F S2000x128 .f32) (x1 : Vec F S1x128 .f32) (x2 : Vec F S128x64 .bf16)
    (x3 : Vec F S1x64 .f32) (xo : Vec F S1x64 .f32) :
    out2_B_4 c i a1 h1 a2 h2 a3 h3 a4 h4 a5 h5 hc x0 x1 x2 x3 xo = k2_pay2 x0 x1 x2 x3 xo := by
  unfold out2_B_4
  rw [View.read_writes_eq_canon _ _ _ (cover2_B_4 c i a1 h1 a2 h2 a3 h3 a4 h4 a5 h5 hc x0 x1 x2 x3 xo)]
  unfold kernelRun2_B
  dsimp only
  rw [View.canon_unit_zero hz]
  simp only [View.readAt_eq_ld, h1.read_unread, h2.read_unread, h3.read_unread, h4.read_unread, h5.read_unread,
    View.ld_unit_zero (S := S2000x128) hz, View.ld_unit_zero (S := S1x128) hz, View.ld_unit_zero (S := S128x64) hz,
    View.ld_unit_zero (S := S1x64) hz]

/-- At the first point the body first stores minus infinity into the output block and reads it back, so it leaves the
    same value computed from the four blocks and from the block of minus infinities. -/
theorem out_A (c : Dev nD) (i : grid2.Coords) (a1 : Memref sig .tc .vmem S2000x128 .f32) (h1 : a1.IsWhole)
    (a2 : Memref sig .tc .vmem S1x128 .f32) (h2 : a2.IsWhole) (a3 : Memref sig .tc .vmem S128x64 .bf16) (h3 : a3.IsWhole)
    (a4 : Memref sig .tc .vmem S1x64 .f32) (h4 : a4.IsWhole) (a5 : Memref sig .tc .vmem S1x64 .f32) (h5 : a5.IsWhole)
    (hc : cond2_0 i) (x0 : Vec F S2000x128 .f32) (x1 : Vec F S1x128 .f32) (x2 : Vec F S128x64 .bf16)
    (x3 : Vec F S1x64 .f32) :
    out2_A_4 c i a1 h1 a2 h2 a3 h3 a4 h4 a5 h5 hc x0 x1 x2 x3 = k2_pay2 x0 x1 x2 x3 (k2_pay1 (F := F)) := by
  unfold out2_A_4
  rw [View.read_writes_eq_canon _ _ _ (cover2_A_4 c i a1 h1 a2 h2 a3 h3 a4 h4 a5 h5 hc x0 x1 x2 x3)]
  unfold kernelRun2_A
  dsimp only
  sl_unfold_words
  rw [View.canon_cons_unit_zero (S := S1x64) hz, Cert.LibReadBack.readCov_cons_unit_zero a5.view hz]
  simp only [View.readAt_eq_ld, h1.read_unread, h2.read_unread, h3.read_unread, h4.read_unread,
    View.ld_unit_zero (S := S2000x128) hz, View.ld_unit_zero (S := S1x128) hz, View.ld_unit_zero (S := S128x64) hz,
    View.ld_unit_zero (S := S1x64) hz]

end Pieces

/-! ## The stored value at a column -/

/-- The four facts about where a plain product's operand indices come from, for the [2000,128]·[128,64] record. -/
theorem dl0 (i : S2000x64.Idx) (q : dot_S2000x128_S128x64_S2000x64_1_0_0_1_n_n.contr.Idx) :
    (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
theorem dl1 (i : S2000x64.Idx) (q : dot_S2000x128_S128x64_S2000x64_1_0_0_1_n_n.contr.Idx) :
    (dot_S2000x128_S128x64_S2000x64_1_0_0_1_n_n.lhsIdx i q 1).val = (q ⟨0, by decide⟩).val :=
  dot_S2000x128_S128x64_S2000x64_1_0_0_1_n_n.lhsIdx_val_of_single rfl i q
theorem dr0 (i : S2000x64.Idx) (q : dot_S2000x128_S128x64_S2000x64_1_0_0_1_n_n.contr.Idx) :
    (dot_S2000x128_S128x64_S2000x64_1_0_0_1_n_n.rhsIdx i q 0).val = (q ⟨0, by decide⟩).val :=
  dot_S2000x128_S128x64_S2000x64_1_0_0_1_n_n.rhsIdx_val_of_single rfl i q
theorem dr1 (i : S2000x64.Idx) (q : dot_S2000x128_S128x64_S2000x64_1_0_0_1_n_n.contr.Idx) :
    (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- The word of minus infinity denotes the least extended real. -/
theorem ofBits_neg_inf : Ideal.ofBits .f32 0xFF800000#32 = (⊥ : EReal) := by simp [Ideal.ofBits, Ideal.ieee]

/-- The value the first point stores before anything else: minus infinity in every column. -/
theorem pay1_apply (c : Fin 64) : k2_pay1 (F := Ideal) (ix2 (0 : Fin 1) c) = (⊥ : EReal) := ofBits_neg_inf

/-- One row of the block through the layer: the row of tanh (block + bias) against the column of the weights, plus the
    output bias (the changes of float format are the identity on extended reals). -/
def rowVal (x0 : Vec Ideal S2000x128 .f32) (x1 : Vec Ideal S1x128 .f32) (x2 : Vec Ideal S128x64 .bf16)
    (x3 : Vec Ideal S1x64 .f32) (c : Fin 64) (r : Fin 2000) : EReal :=
  (∑ k : Fin 128, Ideal.tanh (x0 (ix2 r k) + x1 (ix2 (0 : Fin 1) k)) * x2 (ix2 k c)) + x3 (ix2 (0 : Fin 1) c)

/-- The lane maximum over the 2000 rows of a [2000,64] block, read at a column: the fold of max from minus infinity. -/
theorem colmax_apply (v : FVec Ideal S2000x64 .f32) (hacc : (0xFF800000#32 : BitVec 32) = FKind.maximumf.neutral .f32 (.inl rfl)) (c : Fin 64) :
    multiReduction .maximumf [0] S64 v 0xFF800000#32 reduces_S2000x64_S64 (.inl rfl) hacc (ix1 c)
      = (Finset.univ : Finset (Fin 2000)).fold max ⊥ (fun r => v (ix2 r c)) := by
  refine (Ideal.multiReduction_maximumf_single v 0xFF800000#32 reduces_S2000x64_S64 (.inl rfl) hacc (ix1 c)).trans ?_
  show (Finset.univ : Finset (Fin 2000)).fold max (Ideal.ofBits .f32 0xFF800000#32) (v ∘ reduces_S2000x64_S64.lift (ix1 c)) = _
  rw [ofBits_neg_inf]
  refine congrArg (fun f => (Finset.univ : Finset (Fin 2000)).fold max ⊥ f) (funext fun r => congrArg v ?_)
  funext a; apply Fin.ext
  match a with
  | ⟨0, _⟩ => rfl
  | ⟨1, _⟩ => rfl

/-- The body's stored value at a column: the larger of what the output block held and the largest, over the block's 2000
    rows, of the row's value. -/
theorem pay2_apply (x0 : Vec Ideal S2000x128 .f32) (x1 : Vec Ideal S1x128 .f32) (x2 : Vec Ideal S128x64 .bf16)
    (x3 : Vec Ideal S1x64 .f32) (xo : Vec Ideal S1x64 .f32) (c : Fin 64) :
    k2_pay2 x0 x1 x2 x3 xo (ix2 (0 : Fin 1) c)
      = max (xo (ix2 (0 : Fin 1) c)) ((Finset.univ : Finset (Fin 2000)).fold max ⊥ (rowVal x0 x1 x2 x3 c)) := by
  unfold k2_pay2
  refine (maximumf_apply _ _ _).trans (congrArg₂ max ?_ ?_)
  · exact congrFun (shapeCast_self xo shapeCasts_S1x64_S1x64) (ix2 (0 : Fin 1) c)
  · refine (shapeCast_a_1a_apply _ shapeCasts_S64_S1x64 (0 : Fin 1) c).trans ?_
    refine (colmax_apply _ _ c).trans ?_
    refine congrArg (fun f => (Finset.univ : Finset (Fin 2000)).fold max ⊥ f) (funext fun r => ?_)
    unfold rowVal
    refine (addf_apply _ _ _).trans (congrArg₂ (· + ·) ?_ ?_)
    · refine (Cert.PlainDot.matmul_zero_apply dot_S2000x128_S128x64_S2000x64_1_0_0_1_n_n none rfl rfl dl0 dl1 dr0 dr1 _ _ r c).trans ?_
      refine Finset.sum_congr rfl fun k _ => congrArg₂ (· * ·) ?_ ?_
      · show Ideal.tanh (shapeCast S2000x128 x0 shapeCasts_S2000x128_S2000x128 (ix2 r k)
            + broadcastTo S2000x128 (shapeCast S1x128 x1 shapeCasts_S1x128_S1x128) broadcasts_S1x128_S2000x128 (ix2 r k)) = _
        rw [shapeCast_self, broadcastTo_1b_ab_apply, shapeCast_self]
      · exact congrFun (shapeCast_self x2 shapeCasts_S128x64_S128x64) (ix2 k c)
    · refine (broadcastTo_1b_ab_apply _ broadcasts_S1x64_S2000x64 r c).trans ?_
      exact congrFun (shapeCast_self x3 shapeCasts_S1x64_S1x64) (ix2 (0 : Fin 1) c)

/-! ## The blocks the windows show -/

section Region
variable (V : (c : Dev nD) → (b : Ref sig .tc) → Buf (Elt Ideal) ((c : Thread nD τ).loc b))

/-- The printed index maps over the grid: the node window moves down the rows, 2000 at a point; the two biases, the
    weights and the output stay on their one block. -/
theorem idx_facts : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0 :=
  (by decide +kernel : ∀ t : Fin grid2.N, _)

/-- Row `r` of the node block at point `t` is row `2000 t + r` of the node array. -/
theorem blk0 (c : Dev nD) (t : Fin cfg2.N) (r : Fin 2000) (k : Fin 128) (h : 2000 * t.val + r.val < 50000) :
    iblk2 V c 0 t (ix2 r k) = V c main_v66 (ix2 (⟨2000 * t.val + r.val, h⟩ : Fin 50000) k) := by
  obtain ⟨e0, e1, -⟩ := idx_facts t
  have h0 : ((cfg2.win 0).blk t).view.emb (ix2 r k) = ix2 (⟨2000 * t.val + r.val, h⟩ : Fin 50000) k := by
    funext a; apply Fin.ext
    match a with
    | ⟨0, _⟩ => show win2_0.index t (0 : Fin 2) * 2000 + 1 * r.val = 2000 * t.val + r.val; omega
    | ⟨1, _⟩ => show win2_0.index t (1 : Fin 2) * 128 + 1 * k.val = k.val; omega
  exact congrArg (V c main_v66) h0

/-- The first bias's block is the bias array. -/
theorem blk1 (c : Dev nD) (t : Fin cfg2.N) (k : Fin 128) :
    iblk2 V c 1 t (ix2 (0 : Fin 1) k) = V c main_v67 (ix2 (0 : Fin 1) k) := by
  obtain ⟨-, -, e2, e3, -⟩ := idx_facts t
  have h0 : ((cfg2.win 1).blk t).view.emb (ix2 (0 : Fin 1) k) = ix2 (0 : Fin 1) k := by
    funext a; apply Fin.ext
    match a with
    | ⟨0, _⟩ => show win2_1.index t (0 : Fin 2) * 1 + 1 * 0 = 0; omega
    | ⟨1, _⟩ => show win2_1.index t (1 : Fin 2) * 128 + 1 * k.val = k.val; omega
  exact congrArg (V c main_v67) h0

/-- The weights' block is the weight array. -/
theorem blk2 (c : Dev nD) (t : Fin cfg2.N) (k : Fin 128) (col : Fin 64) :
    iblk2 V c 2 t (ix2 k col) = V c main_v69 (ix2 k col) := by
  obtain ⟨-, -, -, -, e4, e5, -⟩ := idx_facts t
  have h0 : ((cfg2.win 2).blk t).view.emb (ix2 k col) = ix2 k col := by
    funext a; apply Fin.ext
    match a with
    | ⟨0, _⟩ => show win2_2.index t (0 : Fin 2) * 128 + 1 * k.val = k.val; omega
    | ⟨1, _⟩ => show win2_2.index t (1 : Fin 2) * 64 + 1 * col.val = col.val; omega
  exact congrArg (V c main_v69) h0

/-- The output bias's block is the bias array. -/
theorem blk3 (c : Dev nD) (t : Fin cfg2.N) (col : Fin 64) :
    iblk2 V c 3 t (ix2 (0 : Fin 1) col) = V c main_v68 (ix2 (0 : Fin 1) col) := by
  obtain ⟨-, -, -, -, -, -, e6, e7, -⟩ := idx_facts t
  have h0 : ((cfg2.win 3).blk t).view.emb (ix2 (0 : Fin 1) col) = ix2 (0 : Fin 1) col := by
    funext a; apply Fin.ext
    match a with
    | ⟨0, _⟩ => show win2_3.index t (0 : Fin 2) * 1 + 1 * 0 = 0; omega
    | ⟨1, _⟩ => show win2_3.index t (1 : Fin 2) * 64 + 1 * col.val = col.val; omega
  exact congrArg (V c main_v68) h0

/-! ## A running maximum over the tiles is the maximum over all rows -/

/-- The layer's value at node `p`, column `col`: tanh of the node's row plus the first bias, against the column of the
    weights, plus the output bias. -/
def nodeVal (c : Dev nD) (col : Fin 64) (p : Fin 50000) : EReal :=
  Cert.Gcn.aff (Cert.Gcn.act (V c main_v66) (Cert.Gcn.rowOf (V c main_v67))) (V c main_v69)
    (Cert.Gcn.rowOf (V c main_v68)) (ix2 p col)

/-- Row `r` of point `t`'s block gives the layer's value at node `2000 t + r`. -/
theorem rowVal_blk (c : Dev nD) (t : Fin cfg2.N) (col : Fin 64) (r : Fin 2000) (h : 2000 * t.val + r.val < 50000) :
    rowVal (iblk2 V c 0 t) (iblk2 V c 1 t) (iblk2 V c 2 t) (iblk2 V c 3 t) col r
      = nodeVal V c col ⟨2000 * t.val + r.val, h⟩ := by
  unfold rowVal nodeVal
  rw [Cert.Gcn.aff_ix2, blk3 V c t col]
  refine congrArg₂ (· + ·) (Finset.sum_congr rfl fun k _ => ?_) (Cert.Gcn.rowOf_ix1 _ _).symm
  rw [Cert.Gcn.act_ix2, Cert.Gcn.rowOf_ix1, blk0 V c t r k h, blk1 V c t k, blk2 V c t k col]

/-- The largest value of the layer over the 2000 rows of point `t`'s block, column `col`. -/
def tileMax (c : Dev nD) (t : Fin cfg2.N) (col : Fin 64) : EReal :=
  (Finset.univ : Finset (Fin 2000)).fold max ⊥
    (rowVal (iblk2 V c 0 t) (iblk2 V c 1 t) (iblk2 V c 2 t) (iblk2 V c 3 t) col)

/-- A bound on the tile's maximum is a bound on the layer's value at each of the nodes `2000 t … 2000 t + 1999`. -/
theorem tileMax_le (c : Dev nD) (t : Fin cfg2.N) (col : Fin 64) (y : EReal) :
    tileMax V c t col ≤ y
      ↔ ∀ p : Fin 50000, 2000 * t.val ≤ p.val → p.val < 2000 * (t.val + 1) → nodeVal V c col p ≤ y := by
  have hN : t.val < 25 := lt_of_lt_of_eq t.isLt (show cfg2.N = 25 from N_2)
  unfold tileMax
  rw [Finset.fold_max_le]
  constructor
  · rintro ⟨-, hall⟩ p h1 h2
    have hr : p.val - 2000 * t.val < 2000 := by omega
    have hlt : 2000 * t.val + (⟨p.val - 2000 * t.val, hr⟩ : Fin 2000).val < 50000 := by
      show 2000 * t.val + (p.val - 2000 * t.val) < 50000; omega
    have hp : p = ⟨2000 * t.val + (⟨p.val - 2000 * t.val, hr⟩ : Fin 2000).val, hlt⟩ :=
      Fin.ext (by show p.val = 2000 * t.val + (p.val - 2000 * t.val); omega)
    have := hall ⟨p.val - 2000 * t.val, hr⟩ (Finset.mem_univ _)
    rw [rowVal_blk V c t col _ hlt] at this
    exact (congrArg (nodeVal V c col) hp).le.trans this
  · intro hall
    refine ⟨bot_le, fun r _ => ?_⟩
    have hr : r.val < 2000 := r.isLt
    have hlt : 2000 * t.val + r.val < 50000 := by omega
    rw [rowVal_blk V c t col r hlt]
    exact hall _ (by show 2000 * t.val ≤ 2000 * t.val + r.val; omega)
      (by show 2000 * t.val + r.val < 2000 * (t.val + 1); omega)

/-- At the first point the output block holds the first tile's maximum (over the minus infinity just stored). -/
theorem outsAt_first (c : Dev nD) (t : Fin cfg2.N) (h0 : t.val % 25 = 0) (col : Fin 64) :
    outsAt2 V c t.val t.isLt (ix2 (0 : Fin 1) col) = max ⊥ (tileMax V c t col) := by
  rw [outsAt2_A V c t h0]
  refine (congrFun (out_A c (grid2.coords t) (ms2_0 t) (hs2_0 t) (ms2_1 t) (hs2_1 t) (ms2_2 t) (hs2_2 t) (ms2_3 t)
    (hs2_3 t) (ms2_4 t) (hs2_4 t) ((hcond2_0 t).mpr h0) (iblk2 V c 0 t) (iblk2 V c 1 t) (iblk2 V c 2 t)
    (iblk2 V c 3 t)) (ix2 (0 : Fin 1) col)).trans ?_
  refine (pay2_apply (iblk2 V c 0 t) (iblk2 V c 1 t) (iblk2 V c 2 t) (iblk2 V c 3 t) (k2_pay1 (F := Ideal)) col).trans ?_
  rw [pay1_apply]
  rfl

/-- At a later point it holds the larger of what the point before left and this tile's maximum. -/
theorem outsAt_later (c : Dev nD) (t : Fin cfg2.N) (h0 : ¬t.val % 25 = 0) (col : Fin 64) :
    outsAt2 V c t.val t.isLt (ix2 (0 : Fin 1) col)
      = max (outsAt2 V c (t.val - 1) (Nat.lt_of_le_of_lt (Nat.sub_le _ _) t.isLt) (ix2 (0 : Fin 1) col))
          (tileMax V c t col) := by
  rw [outsAt2_B V c t h0]
  refine (congrFun (out_B c (grid2.coords t) (ms2_0 t) (hs2_0 t) (ms2_1 t) (hs2_1 t) (ms2_2 t) (hs2_2 t) (ms2_3 t)
    (hs2_3 t) (ms2_4 t) (hs2_4 t) (fun h => h0 ((hcond2_0 t).mp h)) (iblk2 V c 0 t) (iblk2 V c 1 t) (iblk2 V c 2 t)
    (iblk2 V c 3 t) (outsAt2 V c (t.val - 1) (Nat.lt_of_le_of_lt (Nat.sub_le _ _) t.isLt))) (ix2 (0 : Fin 1) col)).trans ?_
  exact pay2_apply (iblk2 V c 0 t) (iblk2 V c 1 t) (iblk2 V c 2 t) (iblk2 V c 3 t)
    (outsAt2 V c (t.val - 1) (Nat.lt_of_le_of_lt (Nat.sub_le _ _) t.isLt)) col

/-- After point `n` the output block holds, at column `col`, the least upper bound of the layer's values over the nodes
    `0 … 2000 (n + 1) - 1`: what bounds it is exactly what bounds every one of them. -/
theorem outsAt_le (c : Dev nD) (col : Fin 64) : ∀ (n : ℕ) (h : n < cfg2.N) (y : EReal),
    outsAt2 V c n h (ix2 (0 : Fin 1) col) ≤ y
      ↔ ∀ p : Fin 50000, p.val < 2000 * (n + 1) → nodeVal V c col p ≤ y
  | 0, h, y => by
    have e := outsAt_first V c ⟨0, h⟩ (Nat.zero_mod 25) col
    have hl := tileMax_le V c ⟨0, h⟩ col y
    show outsAt2 V c (⟨0, h⟩ : Fin cfg2.N).val (⟨0, h⟩ : Fin cfg2.N).isLt (ix2 (0 : Fin 1) col) ≤ y ↔ _
    rw [e, max_le_iff, hl]
    constructor
    · rintro ⟨-, hh⟩ p hp
      exact hh p (by show 2000 * 0 ≤ p.val; omega) (by show p.val < 2000 * (0 + 1); omega)
    · intro hh
      exact ⟨bot_le, fun p _ hp => hh p (by have : p.val < 2000 * (0 + 1) := hp; omega)⟩
  | n + 1, h, y => by
    have hN : cfg2.N = 25 := N_2
    have hB : ¬(⟨n + 1, h⟩ : Fin cfg2.N).val % 25 = 0 := by show ¬(n + 1) % 25 = 0; omega
    have e := outsAt_later V c ⟨n + 1, h⟩ hB col
    have hl := tileMax_le V c ⟨n + 1, h⟩ col y
    have ih := outsAt_le c col n (Nat.lt_of_succ_lt h) y
    show outsAt2 V c (⟨n + 1, h⟩ : Fin cfg2.N).val (⟨n + 1, h⟩ : Fin cfg2.N).isLt (ix2 (0 : Fin 1) col) ≤ y ↔ _
    rw [e, max_le_iff, hl]
    constructor
    · rintro ⟨h1, h2⟩ p hp
      by_cases hlt : p.val < 2000 * (n + 1)
      · exact ih.mp h1 p hlt
      · exact h2 p (by show 2000 * (n + 1) ≤ p.val; omega) (by show p.val < 2000 * (n + 1 + 1); omega)
    · intro hh
      refine ⟨ih.mpr fun p hp => hh p (by omega), fun p h1 h2 => hh p ?_⟩
      have : p.val < 2000 * (n + 1 + 1) := h2
      omega

/-! ## The array the region leaves -/

/-- A block of the one-row output array read at a column is the array read at that column, and what a point writes
    back is its buffer: so a buffer that agrees with a one-row array at every column is written back as that array's
    block. (Stated for an arbitrary buffer and an arbitrary array: nothing here looks inside either.) -/
theorem cut_eq_read (t : Fin cfg2.N) (X : Vec Ideal S1x64 .f32) (G : (⟨2, ![1, 64]⟩ : Shape).Idx → EReal)
    (hG : ∀ col : Fin 64, X (ix2 (0 : Fin 1) col) = G (ix2 (0 : Fin 1) col)) :
    (cfg2.win 4).cut (grid2.coords t) X = ((cfg2.win 4).blk t).view.read (Elt Ideal) G := by
  obtain ⟨-, -, -, -, -, -, -, -, e8, e9⟩ := idx_facts t
  funext j
  obtain ⟨z, col, rfl⟩ : ∃ (z : Fin 1) (col : Fin 64), j = ix2 z col := ⟨j 0, j 1, eq_ix2 j⟩
  obtain rfl : z = 0 := Subsingleton.elim _ _
  rw [View.read_apply]
  show X (ix2 (0 : Fin 1) col) = G (((cfg2.win 4).blk t).view.emb (ix2 (0 : Fin 1) col))
  have hemb : ((cfg2.win 4).blk t).view.emb (ix2 (0 : Fin 1) col) = ix2 (0 : Fin 1) col := by
    funext a; apply Fin.ext
    match a with
    | ⟨0, _⟩ => show win2_4.index t (0 : Fin 2) * 1 + 1 * 0 = 0; omega
    | ⟨1, _⟩ => show win2_4.index t (1 : Fin 2) * 64 + 1 * col.val = col.val; omega
  rw [hemb]
  exact hG col

/-- After the last point the output block holds, at every column, the largest value of the layer over all 50000 nodes. -/
theorem outsAt_last (c : Dev nD) (t : Fin cfg2.N) (h24 : t.val = 24) (col : Fin 64) :
    outsAt2 V c t.val t.isLt (ix2 (0 : Fin 1) col)
      = Cert.Gcn.stage2 (V c main_v66) (Cert.Gcn.rowOf (V c main_v67)) (V c main_v69) (Cert.Gcn.rowOf (V c main_v68))
          (ix2 (0 : Fin 1) col) := by
  have hR : Cert.Gcn.stage2 (V c main_v66) (Cert.Gcn.rowOf (V c main_v67)) (V c main_v69) (Cert.Gcn.rowOf (V c main_v68))
      (ix2 (0 : Fin 1) col) = (Finset.univ : Finset (Fin 50000)).fold max ⊥ (fun p => nodeVal V c col p) := rfl
  refine Eq.trans (eq_of_forall_ge_iff fun y => ?_) hR.symm
  rw [outsAt_le V c col t.val t.isLt y, Finset.fold_max_le]
  constructor
  · intro hh
    exact ⟨bot_le, fun p _ => hh p (by have := p.isLt; omega)⟩
  · rintro ⟨-, hh⟩ p _
    exact hh p (Finset.mem_univ p)

/-- What the one writing point writes back is the column maxima of the layer over all nodes. -/
theorem flushed_eq (c : Dev nD) (t : Fin cfg2.N) (hf : (cfg2.win 4).flush t = true) :
    (dat2 V c).flushed 4 t
      = ((cfg2.win 4).blk t).view.read (Elt Ideal)
          (Cert.Gcn.stage2 (V c main_v66) (Cert.Gcn.rowOf (V c main_v67)) (V c main_v69) (Cert.Gcn.rowOf (V c main_v68))) := by
  have hN : cfg2.N = 25 := N_2
  have h24 : t.val = 24 := by have h1 := (flush2_4 t).mp hf; have h2 := t.isLt; omega
  show (cfg2.win 4).cut (grid2.coords t) ((dat2 V c).after 4 t) = _
  rw [after2_4]
  exact cut_eq_read t (outsAt2 V c t.val t.isLt) _ (fun col => outsAt_last V c t h24 col)

/-- An index of the output array is in a point's block iff each coordinate is in the block's range on its axis. -/
theorem mem_blk (t : Fin cfg2.N) (i : S1x64.Idx) :
    i ∈ ((cfg2.win 4).blk t).view.set ↔ ∀ a : Fin 2, win2_4.index t a * S1x64.size a ≤ (i a).val
      ∧ (i a).val < win2_4.index t a * S1x64.size a + S1x64.size a := by
  show i ∈ ((View.whole main_v70).slice (win2_4.rect t)).set ↔ _
  rw [View.set_slice_whole, Rect.mem_set_unit]
  exact Iff.rfl

/-- The output array is one block, and the last point writes it back. -/
theorem cover (i : S1x64.Idx) :
    ∃ t : Fin cfg2.N, (cfg2.win 4).flush t = true ∧ i ∈ ((cfg2.win 4).blk t).view.set := by
  have hi0 : (i 0).val < 1 := (i 0).isLt
  have hi1 : (i 1).val < 64 := (i 1).isLt
  have ht : 24 < cfg2.N := lt_of_lt_of_eq (by omega : 24 < 25) (show cfg2.N = 25 from N_2).symm
  obtain ⟨-, -, -, -, -, -, -, -, e8, e9⟩ := idx_facts ⟨24, ht⟩
  refine ⟨⟨24, ht⟩, (flush2_4 _).mpr rfl, ?_⟩
  rw [mem_blk]
  intro a
  match a with
  | ⟨0, _⟩ =>
    show win2_4.index ⟨24, ht⟩ (0 : Fin 2) * 1 ≤ (i 0).val ∧ (i 0).val < win2_4.index ⟨24, ht⟩ (0 : Fin 2) * 1 + 1
    rw [e8]; omega
  | ⟨1, _⟩ =>
    show win2_4.index ⟨24, ht⟩ (1 : Fin 2) * 64 ≤ (i 1).val ∧ (i 1).val < win2_4.index ⟨24, ht⟩ (1 : Fin 2) * 64 + 64
    rw [e9]; omega

/-- The array the third region leaves: the column maxima, over all 50000 nodes, of the output layer applied to
    tanh of the node array plus the first bias. -/
theorem final (c : Dev nD) :
    (dat2 V c).arrAt 4 cfg2.N
      = Cert.Gcn.stage2 (V c main_v66) (Cert.Gcn.rowOf (V c main_v67)) (V c main_v69) (Cert.Gcn.rowOf (V c main_v68)) :=
  (dat2 V c).arrAt_eq_of_cover 4 _ (fun t hf => flushed_eq V c t hf) cover

end Region

end Cert.KernelIdeal.Region2

end
-- ==== Proof.Chain.lean ====
/-
  The kernel program's result buffer, walked back from the return to the launch memory.

  The program is three regions with host operations between them. The first region leaves the product of the node
  features and the first weights; the host operations after it aggregate that product along the edges and reshape or
  narrow the next layers' biases and weights, which changes nothing on extended reals; the second region applies bias and
  tanh, the hidden affine layer and the second weights; the host operations after it aggregate again, with the same node
  lists and edge norms; the third region applies bias and tanh, the output layer and the maximum over the nodes. The
  biases and weights of the later layers, the two node lists and the edge norms are written by no region and by no host
  operation after the first region's entry, so at every later boundary they are what the first region found. Every
  equation is between whole arrays: a stage's arguments are replaced one by one and no stage is ever opened.
-/
import proofs.«117327_j28965259444614_2_alg».proof.Proof.Glue
import proofs.«117327_j28965259444614_2_alg».proof.Proof.GlueOps
import proofs.«117327_j28965259444614_2_alg».proof.Proof.Region0
import proofs.«117327_j28965259444614_2_alg».proof.Proof.Region1
import proofs.«117327_j28965259444614_2_alg».proof.Proof.Region2
import proofs.«117327_j28965259444614_2_alg».proof.Proof.Result

set_option maxRecDepth 16384

noncomputable section

namespace Cert.KernelIdeal.Chain

open Cert.KernelIdeal Cert.KernelIdeal.Gen Idealize.ShloMosaic Idealize.ShloMosaic.TcCoe
open Idealize.SL.Sem Idealize.ShloMosaic.StableHlo

/-! ## Congruence of the stages in all their arguments -/

theorem congr_stage1 {a a' : (⟨2, ![50000, 128]⟩ : Shape).Idx → EReal} {b1 b1' : (⟨1, ![128]⟩ : Shape).Idx → EReal}
    {wl wl' : (⟨2, ![128, 128]⟩ : Shape).Idx → EReal} {bl bl' : (⟨1, ![128]⟩ : Shape).Idx → EReal}
    {w2 w2' : (⟨2, ![128, 128]⟩ : Shape).Idx → EReal}
    (ha : a = a') (hb1 : b1 = b1') (hwl : wl = wl') (hbl : bl = bl') (hw2 : w2 = w2') :
    Cert.Gcn.stage1 a b1 wl bl w2 = Cert.Gcn.stage1 a' b1' wl' bl' w2' := by
  subst ha hb1 hwl hbl hw2; rfl

theorem congr_stage2 {a a' : (⟨2, ![50000, 128]⟩ : Shape).Idx → EReal} {b2 b2' : (⟨1, ![128]⟩ : Shape).Idx → EReal}
    {wo wo' : (⟨2, ![128, 64]⟩ : Shape).Idx → EReal} {bo bo' : (⟨1, ![64]⟩ : Shape).Idx → EReal}
    (ha : a = a') (hb2 : b2 = b2') (hwo : wo = wo') (hbo : bo = bo') :
    Cert.Gcn.stage2 a b2 wo bo = Cert.Gcn.stage2 a' b2' wo' bo' := by
  subst ha hb2 hwo hbo; rfl

variable (m : (ℓ : Loc nD τ sig) → Buf (Elt Ideal) ℓ) (ρ : Dev nD → PrngReg) (c : Dev nD)

/-! ## The buffers no region and no host operation after the first region's entry writes -/

/-- The biases and weights of the later layers, the two node lists and the edge norms. -/
abbrev carried : List (Ref sig .tc) :=
  [main_arg3, main_arg4, main_arg5, main_arg6, main_arg7, main_arg8, main_arg9, main_v3, main_v6, main_v31]

theorem carried_kept : ∀ r ∈ carried, r ∈ Glue.kept := by decide
theorem ne0 : ∀ r ∈ carried, ∀ w : Fin 3, Pipeline.arrRef spec0 w ≠ r := by decide
theorem ne1 : ∀ r ∈ carried, ∀ w : Fin 6, Pipeline.arrRef spec1 w ≠ r := by decide

theorem W4_carried (r : Ref sig .tc) (hr : r ∈ carried) : W4 m ρ c (Proc.devRef .tc r) = W3 m ρ c (Proc.devRef .tc r) :=
  W4_of_ne m ρ c r (ne0 r hr)
theorem W5_carried (r : Ref sig .tc) (hr : r ∈ carried) : W5 m ρ c (Proc.devRef .tc r) = W3 m ρ c (Proc.devRef .tc r) :=
  (Glue.keep1 (W4 m ρ c) r (carried_kept r hr)).trans (W4_carried m ρ c r hr)
theorem W6_carried (r : Ref sig .tc) (hr : r ∈ carried) : W6 m ρ c (Proc.devRef .tc r) = W3 m ρ c (Proc.devRef .tc r) :=
  (W6_of_ne m ρ c r (ne1 r hr)).trans (W5_carried m ρ c r hr)

/-! ## The first region and the host operations after it -/

/-- The first region leaves the product of the features and the first weights. -/
theorem W4_v33 : W4 m ρ c (Proc.devRef .tc main_v33) = Cert.Gcn.stage0 (m ((c : Thread nD τ).loc main_arg0)) (m ((c : Thread nD τ).loc main_arg2)) :=
  (W4_arr m ρ c 2).trans ((Region0.final (V3 m ρ) c).trans
    (congrArg₂ Cert.Gcn.stage0 (Glue.W3_arg m ρ c main_arg0 (by decide)) (Glue.W3_v32 m ρ c)))

/-- At the first region's exit the node lists and the edge norms are the reference's. -/
theorem W4_v3 : W4 m ρ c (Proc.devRef .tc main_v3) = Cert.ReferenceIdeal.ReadP.val_main_v3 (F := Ideal) (m ((c : Thread nD τ).loc main_arg1)) :=
  (W4_carried m ρ c main_v3 (by decide)).trans (Glue.W3_v3 m ρ c)
theorem W4_v6 : W4 m ρ c (Proc.devRef .tc main_v6) = Cert.ReferenceIdeal.ReadP.val_main_v6 (F := Ideal) (m ((c : Thread nD τ).loc main_arg1)) :=
  (W4_carried m ρ c main_v6 (by decide)).trans (Glue.W3_v6 m ρ c)
theorem W4_v31 : W4 m ρ c (Proc.devRef .tc main_v31) = Cert.ReferenceIdeal.ReadP.val_main_v31 (F := Ideal) (m ((c : Thread nD τ).loc main_arg1)) :=
  (W4_carried m ρ c main_v31 (by decide)).trans (Glue.W3_v31 m ρ c)

/-- An argument among the carried buffers, at the first region's exit, is as launched. -/
theorem W4_arg (r : Ref sig .tc) (hr : r ∈ carried) (ha : r ∈ Glue.keptArgs) : W4 m ρ c (Proc.devRef .tc r) = m ((c : Thread nD τ).loc r) :=
  (W4_carried m ρ c r hr).trans (Glue.W3_arg m ρ c r ha)

/-- The second region finds the aggregated product. -/
theorem W5_v47 : W5 m ρ c (Proc.devRef .tc main_v47) = Cert.ReferenceIdeal.Agg.agg (m ((c : Thread nD τ).loc main_arg1)) (Cert.Gcn.stage0 (m ((c : Thread nD τ).loc main_arg0)) (m ((c : Thread nD τ).loc main_arg2))) :=
  (GlueOps.ops1_v47 (W4 m ρ c) (m ((c : Thread nD τ).loc main_arg1)) (W4_v3 m ρ c) (W4_v6 m ρ c) (W4_v31 m ρ c)).trans
    (congrArg (Cert.ReferenceIdeal.Agg.agg (m ((c : Thread nD τ).loc main_arg1))) (W4_v33 m ρ c))
theorem W5_v48 : Cert.Gcn.rowOf (W5 m ρ c (Proc.devRef .tc main_v48)) = m ((c : Thread nD τ).loc main_arg3) :=
  (GlueOps.ops1_v48 (W4 m ρ c)).trans (W4_arg m ρ c main_arg3 (by decide) (by decide))
theorem W5_v49 : Cert.Gcn.rowOf (W5 m ρ c (Proc.devRef .tc main_v49)) = m ((c : Thread nD τ).loc main_arg5) :=
  (GlueOps.ops1_v49 (W4 m ρ c)).trans (W4_arg m ρ c main_arg5 (by decide) (by decide))
theorem W5_v50 : W5 m ρ c (Proc.devRef .tc main_v50) = m ((c : Thread nD τ).loc main_arg4) :=
  (GlueOps.ops1_v50 (W4 m ρ c)).trans (W4_arg m ρ c main_arg4 (by decide) (by decide))
theorem W5_v51 : W5 m ρ c (Proc.devRef .tc main_v51) = m ((c : Thread nD τ).loc main_arg6) :=
  (GlueOps.ops1_v51 (W4 m ρ c)).trans (W4_arg m ρ c main_arg6 (by decide) (by decide))

/-! ## The second region and the host operations after it -/

/-- The second region leaves the middle stage of the aggregated product. -/
theorem W6_v52 : W6 m ρ c (Proc.devRef .tc main_v52) = Cert.Gcn.stage1 (Cert.ReferenceIdeal.Agg.agg (m ((c : Thread nD τ).loc main_arg1)) (Cert.Gcn.stage0 (m ((c : Thread nD τ).loc main_arg0)) (m ((c : Thread nD τ).loc main_arg2)))) (m ((c : Thread nD τ).loc main_arg3)) (m ((c : Thread nD τ).loc main_arg4)) (m ((c : Thread nD τ).loc main_arg5)) (m ((c : Thread nD τ).loc main_arg6)) :=
  (W6_arr m ρ c 5).trans ((Region1.final (V5 m ρ) c).trans
    (congr_stage1 (W5_v47 m ρ c) (W5_v48 m ρ c) (W5_v50 m ρ c) (W5_v49 m ρ c) (W5_v51 m ρ c)))

theorem W6_v3 : W6 m ρ c (Proc.devRef .tc main_v3) = Cert.ReferenceIdeal.ReadP.val_main_v3 (F := Ideal) (m ((c : Thread nD τ).loc main_arg1)) :=
  (W6_carried m ρ c main_v3 (by decide)).trans (Glue.W3_v3 m ρ c)
theorem W6_v6 : W6 m ρ c (Proc.devRef .tc main_v6) = Cert.ReferenceIdeal.ReadP.val_main_v6 (F := Ideal) (m ((c : Thread nD τ).loc main_arg1)) :=
  (W6_carried m ρ c main_v6 (by decide)).trans (Glue.W3_v6 m ρ c)
theorem W6_v31 : W6 m ρ c (Proc.devRef .tc main_v31) = Cert.ReferenceIdeal.ReadP.val_main_v31 (F := Ideal) (m ((c : Thread nD τ).loc main_arg1)) :=
  (W6_carried m ρ c main_v31 (by decide)).trans (Glue.W3_v31 m ρ c)
theorem W6_arg (r : Ref sig .tc) (hr : r ∈ carried) (ha : r ∈ Glue.keptArgs) : W6 m ρ c (Proc.devRef .tc r) = m ((c : Thread nD τ).loc r) :=
  (W6_carried m ρ c r hr).trans (Glue.W3_arg m ρ c r ha)

/-- The third region finds the second aggregation. -/
theorem W7_v66 : W7 m ρ c (Proc.devRef .tc main_v66) = Cert.ReferenceIdeal.Agg.agg (m ((c : Thread nD τ).loc main_arg1)) (Cert.Gcn.stage1 (Cert.ReferenceIdeal.Agg.agg (m ((c : Thread nD τ).loc main_arg1)) (Cert.Gcn.stage0 (m ((c : Thread nD τ).loc main_arg0)) (m ((c : Thread nD τ).loc main_arg2)))) (m ((c : Thread nD τ).loc main_arg3)) (m ((c : Thread nD τ).loc main_arg4)) (m ((c : Thread nD τ).loc main_arg5)) (m ((c : Thread nD τ).loc main_arg6))) :=
  (GlueOps.ops2_v66 (W6 m ρ c) (m ((c : Thread nD τ).loc main_arg1)) (W6_v3 m ρ c) (W6_v6 m ρ c) (W6_v31 m ρ c)).trans
    (congrArg (Cert.ReferenceIdeal.Agg.agg (m ((c : Thread nD τ).loc main_arg1))) (W6_v52 m ρ c))
theorem W7_v67 : Cert.Gcn.rowOf (W7 m ρ c (Proc.devRef .tc main_v67)) = m ((c : Thread nD τ).loc main_arg7) :=
  (GlueOps.ops2_v67 (W6 m ρ c)).trans (W6_arg m ρ c main_arg7 (by decide) (by decide))
theorem W7_v68 : Cert.Gcn.rowOf (W7 m ρ c (Proc.devRef .tc main_v68)) = m ((c : Thread nD τ).loc main_arg9) :=
  (GlueOps.ops2_v68 (W6 m ρ c)).trans (W6_arg m ρ c main_arg9 (by decide) (by decide))
theorem W7_v69 : W7 m ρ c (Proc.devRef .tc main_v69) = m ((c : Thread nD τ).loc main_arg8) :=
  (GlueOps.ops2_v69 (W6 m ρ c)).trans (W6_arg m ρ c main_arg8 (by decide) (by decide))

/-! ## The third region: the result -/

/-- The result buffer at the return holds the network's output, as a function of the launch memory. -/
theorem W8_v70 (m : (ℓ : Loc nD τ sig) → Buf (Elt Ideal) ℓ) (ρ : Dev nD → PrngReg) (c : Dev nD) :
    W8 m ρ c (Proc.devRef .tc main_v70) = Cert.KernelIdeal.Result.value m c := by
  unfold Cert.KernelIdeal.Result.value
  exact (W8_arr m ρ c 4).trans ((Region2.final (V7 m ρ) c).trans
    (congr_stage2 (W7_v66 m ρ c) (W7_v67 m ρ c) (W7_v69 m ρ c) (W7_v68 m ρ c)))

end Cert.KernelIdeal.Chain

end
-- ==== Proof.lean ====
/-
  The certificate of the graph convolution network kernel against its reference.

  Both programs compute, on the extended reals, the same function of their ten arguments: the node features times the
  first weights; the aggregation along the graph's edges (gather at the source nodes, scale by the edge norms, scatter-add
  into the destination nodes — the same host operations in both programs, kept as one function); bias, tanh, the
  hidden affine layer and the second weights; the aggregation again; bias, tanh, the output affine layer; and the
  maximum of every output column over all 50000 nodes. The kernel computes the three dense stages in three grids of 25
  blocks of 2000 rows: a product of a block of rows with a whole weight matrix is the block of the whole product, and the
  running maximum over the 25 blocks, started at minus infinity, is the maximum over all rows. No law used needs the
  inputs to be finite. The frames are the programs' runs with the result dropped; the idealization rewrote no operation.
-/
import proofs.«117327_j28965259444614_2_alg».proof.Defs
import proofs.«117327_j28965259444614_2_alg».proof.Proof.Assemble
import proofs.«117327_j28965259444614_2_alg».proof.Proof.Chain

noncomputable section

namespace Cert.Proof

theorem claim : Cert.Claim := Cert.Proof.Assemble.claim_of Cert.KernelIdeal.Chain.W8_v70

end Cert.Proof

end
